-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32768x128 : Shape := ⟨3, ![8, 32768, 128]⟩
abbrev S8x64x128 : Shape := ⟨3, ![8, 64, 128]⟩
abbrev S128x128 : Shape := ⟨2, ![128, 128]⟩
abbrev S_ : Shape := ⟨0, ![]⟩

class Facts : Prop where
  bcast_S_S8x32768x128 : S_.BroadcastsInDim S8x32768x128 (![] : Fin 0 → Fin S8x32768x128.rank)
  reducesTo_S8x32768x128_S_d0_1_2 : S8x32768x128.ReducesTo [0, 1, 2] S_
  h_S_ : 0 < S_.numel
  bcast_S_S8x64x128 : S_.BroadcastsInDim S8x64x128 (![] : Fin 0 → Fin S8x64x128.rank)
  reducesTo_S8x64x128_S_d0_1_2 : S8x64x128.ReducesTo [0, 1, 2] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  main_v23

def fn {F : FTy → Type} [FloatOps F] (main_arg0 : FVec F S8x32768x128 .f32) (main_arg1 : FVec F S8x64x128 .f32) (main_arg2 : FVec F S128x128 .f32) (main_arg3 : FVec F S128x128 .f32) (main_arg4 : FVec F S128x128 .f32) : IVec S_ 1 :=
  let main_v0 : FVec F S8x32768x128 .f32 := Host.absf main_arg0
  let main_cst : FVec F S_ .f32 := constant S_ .f32 0x7F800000#32
  let main_v1 : FVec F S8x32768x128 .f32 := broadcastInDim S8x32768x128 ![] bcast_S_S8x32768x128 main_cst
  let main_v2 : IVec S8x32768x128 1 := cmpf .olt main_v0 main_v1
  let main_c : IVec S_ 1 := constantI S_ 1 1#1
  let main_v3 : IVec S_ 1 := (fun x v => Host.reduce IntOp.andi x v reducesTo_S8x32768x128_S_d0_1_2 h_S_) main_v2 main_c
  let main_v4 : FVec F S8x64x128 .f32 := Host.absf main_arg1
  let main_cst_0 : FVec F S_ .f32 := constant S_ .f32 0x7F800000#32
  let main_v5 : FVec F S8x64x128 .f32 := broadcastInDim S8x64x128 ![] bcast_S_S8x64x128 main_cst_0
  let main_v6 : IVec S8x64x128 1 := cmpf .olt main_v4 main_v5
  let main_c_1 : IVec S_ 1 := constantI S_ 1 1#1
  let main_v7 : IVec S_ 1 := (fun x v => Host.reduce IntOp.andi x v reducesTo_S8x64x128_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S8x32768x128 : Shape := ⟨3, ![8, 32768, 128]⟩
abbrev S8x64x128 : Shape := ⟨3, ![8, 64, 128]⟩
abbrev S128x128 : Shape := ⟨2, ![128, 128]⟩
abbrev S1x4096x128 : Shape := ⟨3, ![1, 4096, 128]⟩
abbrev S1x64x128 : Shape := ⟨3, ![1, 64, 128]⟩
abbrev S64x128 : Shape := ⟨2, ![64, 128]⟩
abbrev S4096x128 : Shape := ⟨2, ![4096, 128]⟩
abbrev S4096x64 : Shape := ⟨2, ![4096, 64]⟩
abbrev S4096 : Shape := ⟨1, ![4096]⟩
abbrev S4096x1 : Shape := ⟨2, ![4096, 1]⟩

abbrev nBuf : Space → Nat
  | .hbm => 6
  | .vmem => 11
  | .smem => 0
  | _ => 0

abbrev bufTy : (tb : Table) → Fin (tcTables nBuf tb) → BufTy
  | .hbm, ⟨0, _⟩ => ⟨S8x32768x128, .f32⟩
  | .hbm, ⟨1, _⟩ => ⟨S8x64x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S8x64x128, .f32⟩
  | .local _ .vmem, ⟨0, _⟩ => ⟨S1x4096x128, .f32⟩
  | .local _ .vmem, ⟨1, _⟩ => ⟨S1x4096x128, .f32⟩
  | .local _ .vmem, ⟨2, _⟩ => ⟨S1x64x128, .f32⟩
  | .local _ .vmem, ⟨3, _⟩ => ⟨S1x64x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S1x64x128, .f32⟩
  | .local _ .vmem, ⟨8, _⟩ => ⟨S1x64x128, .f32⟩
  | .local _ .vmem, ⟨9, _⟩ => ⟨S64x128, .f32⟩
  | .local _ .vmem, ⟨10, _⟩ => ⟨S64x128, .f32⟩
  | _, _ => ⟨S8x32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v33 : BitVec 1 := Scalar.cmpi .eq arg1 c7_i32
  let v34 : BitVec 32 := Scalar.extui v33
  let c0_i32_19 : BitVec 32 := 0#32
  let v35 : BitVec 1 := Scalar.cmpi .ne v34 c0_i32_19
  v35

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  reduces_S4096x64_S4096 : S4096x64.Reduces [1] S4096
  shapeCasts_S4096_S4096x1 : S4096.ShapeCasts S4096x1
  broadcasts_S4096x1_S4096x64 : S4096x1.Broadcasts S4096x64
  shapeCasts_S64x128_S1x64x128 : S64x128.ShapeCasts S1x64x128
  dot_S64x128_S128x128_S64x128_1_0_0_1_n_n_wf : DotDims.WF S64x128 S128x128 S64x128 [1] [0] [0] [1] [] []
  dot_S4096x128_S128x128_S4096x128_1_0_0_1_n_n_wf : DotDims.WF S4096x128 S128x128 S4096x128 [1] [0] [0] [1] [] []
  dot_S4096x128_S64x128_S4096x64_1_1_0_0_n_n_wf : DotDims.WF S4096x128 S64x128 S4096x64 [1] [1] [0] [0] [] []
  dot_S4096x64_S4096x128_S64x128_0_0_1_1_n_n_wf : DotDims.WF S4096x64 S4096x128 S64x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S8x32768x128.size a
  hwx0_0 : ∀ i : grid0.Coords, EltTy.bits .f32 = 32 ∨ (Rect.block (s := S8x32768x128) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x128.size a ≤ S8x64x128.size a
  hwx0_1 : ∀ i : grid0.Coords, EltTy.bits .f32 = 32 ∨ (Rect.block (s := S8x64x128) S1x64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x128.size a ≤ S8x64x128.size a
  hwx0_5 : ∀ i : grid0.Coords, EltTy.bits .f32 = 32 ∨ (Rect.block (s := S8x64x128) S1x64x128.size (cc0_transform_5 i) (hinb0_5 i)).WholeWords (EltTy.packing .f32)

variable [Facts₀]

def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S64x128_S4096x64_1_1_0_0_n_n : DotDims S4096x128 S64x128 S4096x64 where
  lhsContracting := [1]
  rhsContracting := [1]
  lhsNonContracting := [0]
  rhsNonContracting := [0]
  lhsBatch := []
  rhsBatch := []
  wf := dot_S4096x128_S64x128_S4096x64_1_1_0_0_n_n_wf
def dot_S4096x64_S4096x128_S64x128_0_0_1_1_n_n : DotDims S4096x64 S4096x128 S64x128 where
  lhsContracting := [0]
  rhsContracting := [0]
  lhsNonContracting := [1]
  rhsNonContracting := [1]
  lhsBatch := []
  rhsBatch := []
  wf := dot_S4096x64_S4096x128_S64x128_0_0_1_1_n_n_wf

abbrev win0_0 : Pipeline.Window sig grid0 :=
  Pipeline.Window.ofSpec (Memref.whole main_arg0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x64x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x32768x128 : Shape := ⟨3, ![8, 32768, 128]⟩
abbrev S8x64x128 : Shape := ⟨3, ![8, 64, 128]⟩
abbrev S128x128 : Shape := ⟨2, ![128, 128]⟩
abbrev S8x32768x64 : Shape := ⟨3, ![8, 32768, 64]⟩
abbrev S_ : Shape := ⟨0, ![]⟩
abbrev S8x32768 : Shape := ⟨2, ![8, 32768]⟩
abbrev S8x32768x1 : Shape := ⟨3, ![8, 32768, 1]⟩

abbrev nBuf : Space → Nat
  | .hbm => 29
  | .vmem => 0
  | .smem => 0
  | _ => 0

abbrev bufTy : (tb : Table) → Fin (tcTables nBuf tb) → BufTy
  | .hbm, ⟨0, _⟩ => ⟨S8x32768x128, .f32⟩
  | .hbm, ⟨1, _⟩ => ⟨S8x64x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S8x32768x128, .f32⟩
  | .hbm, ⟨6, _⟩ => ⟨S8x32768x128, .f32⟩
  | .hbm, ⟨7, _⟩ => ⟨S8x64x128, .f32⟩
  | .hbm, ⟨8, _⟩ => ⟨S8x32768x64, .f32⟩
  | .hbm, ⟨9, _⟩ => ⟨S_, .f32⟩
  | .hbm, ⟨10, _⟩ => ⟨S8x32768x64, .f32⟩
  | .hbm, ⟨11, _⟩ => ⟨S8x32768x64, .f32⟩
  | .hbm, ⟨12, _⟩ => ⟨S8x32768x64, .f32⟩
  | .hbm, ⟨13, _⟩ => ⟨S8x32768x64, .f32⟩
  | .hbm, ⟨14, _⟩ => ⟨S_, .f32⟩
  | .hbm, ⟨15, _⟩ => ⟨S8x32768x64, .f32⟩
  | .hbm, ⟨16, _⟩ => ⟨S8x32768x64, .f32⟩
  | .hbm, ⟨17, _⟩ => ⟨S_, .f32⟩
  | .hbm, ⟨18, _⟩ => ⟨S8x32768x64, .f32⟩
  | .hbm, ⟨19, _⟩ => ⟨S8x32768x64, .f32⟩
  | .hbm, ⟨20, _⟩ => ⟨S_, .f32⟩
  | .hbm, ⟨21, _⟩ => ⟨S8x32768x64, .f32⟩
  | .hbm, ⟨22, _⟩ => ⟨S8x32768x64, .f32⟩
  | .hbm, ⟨23, _⟩ => ⟨S_, .f32⟩
  | .hbm, ⟨24, _⟩ => ⟨S8x32768, .f32⟩
  | .hbm, ⟨25, _⟩ => ⟨S8x32768x1, .f32⟩
  | .hbm, ⟨26, _⟩ => ⟨S8x32768x64, .f32⟩
  | .hbm, ⟨27, _⟩ => ⟨S8x32768x64, .f32⟩
  | .hbm, ⟨28, _⟩ => ⟨S8x64x128, .f32⟩
  | _, _ => ⟨S8x32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S_S8x32768x64 : S_.BroadcastsInDim S8x32768x64 (![] : Fin 0 → Fin S8x32768x64.rank)
  reducesTo_S8x32768x64_S8x32768_d2 : S8x32768x64.ReducesTo [2] S8x32768
  h_S_ : 0 < S_.numel
  bcast_S8x32768_S8x32768x1_0_1 : S8x32768.BroadcastsInDim S8x32768x1 (![0, 1] : Fin 2 → Fin S8x32768x1.rank)
  bcast_S8x32768x1_S8x32768x64_0_1_2 : S8x32768x1.BroadcastsInDim S8x32768x64 (![0, 1, 2] : Fin 3 → Fin S8x32768x64.rank)
  dot_S8x32768x128_S128x128_S8x32768x128_2_0_01_1_n_n_wf : DotDims.WF S8x32768x128 S128x128 S8x32768x128 [2] [0] [0, 1] [1] [] []
  dot_S8x64x128_S128x128_S8x64x128_2_0_01_1_n_n_wf : DotDims.WF S8x64x128 S128x128 S8x64x128 [2] [0] [0, 1] [1] [] []
  dot_S8x32768x128_S8x64x128_S8x32768x64_2_2_1_1_0_0_wf : DotDims.WF S8x32768x128 S8x64x128 S8x32768x64 [2] [2] [1] [1] [0] [0]
  dot_S8x32768x64_S8x32768x128_S8x64x128_1_1_2_2_0_0_wf : DotDims.WF S8x32768x64 S8x32768x128 S8x64x128 [1] [1] [2] [2] [0] [0]

variable [Facts₀]

def dot_S8x32768x128_S128x128_S8x32768x128_2_0_01_1_n_n : DotDims S8x32768x128 S128x128 S8x32768x128 where
  lhsContracting := [2]
  rhsContracting := [0]
  lhsNonContracting := [0, 1]
  rhsNonContracting := [1]
  lhsBatch := []
  rhsBatch := []
  wf := dot_S8x32768x128_S128x128_S8x32768x128_2_0_01_1_n_n_wf
def dot_S8x64x128_S128x128_S8x64x128_2_0_01_1_n_n : DotDims S8x64x128 S128x128 S8x64x128 where
  lhsContracting := [2]
  rhsContracting := [0]
  lhsNonContracting := [0, 1]
  rhsNonContracting := [1]
  lhsBatch := []
  rhsBatch := []
  wf := dot_S8x64x128_S128x128_S8x64x128_2_0_01_1_n_n_wf
def dot_S8x32768x128_S8x64x128_S8x32768x64_2_2_1_1_0_0 : DotDims S8x32768x128 S8x64x128 S8x32768x64 where
  lhsContracting := [2]
  rhsContracting := [2]
  lhsNonContracting := [1]
  rhsNonContracting := [1]
  lhsBatch := [0]
  rhsBatch := [0]
  wf := dot_S8x32768x128_S8x64x128_S8x32768x64_2_2_1_1_0_0_wf
def dot_S8x32768x64_S8x32768x128_S8x64x128_1_1_2_2_0_0 : DotDims S8x32768x64 S8x32768x128 S8x64x128 where
  lhsContracting := [1]
  rhsContracting := [1]
  lhsNonContracting := [2]
  rhsNonContracting := [2]
  lhsBatch := [0]
  rhsBatch := [0]
  wf := dot_S8x32768x64_S8x32768x128_S8x64x128_1_1_2_2_0_0_wf

class Facts : Prop extends Facts₀ where

variable [Facts]
-- ==== Proof.Pieces.lean ====
/-
  What one grid step leaves behind, case by case, as plain terms of what it read.

  The body keeps two buffers between steps: the accumulator (the running sum of the tiles' partial results) and the slot
  queries q = S·Wq of the current batch. A step is one of three kinds:
    first tile of a batch   — q is computed and stored, the accumulator is zeroed, then the tile's partial result is added;
    a middle tile           — the tile's partial result is added to the accumulator, q is kept;
    last tile of a batch    — as a middle tile, and the accumulator is copied out as the batch's output block.
  Each lemma reads the stores the step made back as the value stored: a later load of a buffer the same step stored
  into sees that store. Nothing is computed here; the lemmas hold for any float type.
-/
import proofs.«165767_j52252572123213_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (arg2 : Memref sig .tc .vmem S1x4096x128 .f32) (harg2 : arg2.IsWhole)
  (arg3 : Memref sig .tc .vmem S1x64x128 .f32) (harg3 : arg3.IsWhole)
  (arg4 : Memref sig .tc .vmem S128x128 .f32) (harg4 : arg4.IsWhole)
  (arg5 : Memref sig .tc .vmem S128x128 .f32) (harg5 : arg5.IsWhole)
  (arg6 : Memref sig .tc .vmem S128x128 .f32) (harg6 : arg6.IsWhole)
  (arg7 : Memref sig .tc .vmem S1x64x128 .f32) (harg7 : arg7.IsWhole)
  (arg8 : Memref sig .tc .vmem S64x128 .f32) (harg8 : arg8.IsWhole)
  (arg9 : Memref sig .tc .vmem S64x128 .f32) (harg9 : arg9.IsWhole)
  (x0 : Vec F S1x4096x128 .f32) (x1 : Vec F S1x64x128 .f32) (x2 x3 x4 : Vec F S128x128 .f32)
  (xs0 xs1 : Vec F S64x128 .f32)

/-! ## First tile of a batch -/

/-- The queries it leaves: S·Wq of the batch's slot block. -/
theorem q_A (hc0 : cond0_0 i) (hc1 : ¬cond0_1 i) :
    sout0_A_1 c i arg2 harg2 arg3 harg3 arg4 harg4 arg5 harg5 arg6 harg6 arg7 harg7 arg8 harg8 arg9 harg9 hc0 hc1 x0 x1 x2 x3 x4 = k0_pay2 x1 x3 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_unit_zero hz2]
  simp only [View.readAt_eq_ld, harg2.read_unread, harg3.read_unread, harg4.read_unread, harg5.read_unread, harg6.read_unread,
    harg8.read_unread, harg9.read_unread, View.ld_unit_zero (S := S1x4096x128) hz3, View.ld_unit_zero (S := S1x64x128) hz3,
    View.ld_unit_zero (S := S128x128) hz2, View.ld_unit_zero (S := S64x128) hz2]

/-- The accumulator it leaves: the tile's step applied to the fresh queries and the zero block. -/
theorem acc_A (hc0 : cond0_0 i) (hc1 : ¬cond0_1 i) :
    sout0_A_0 c i arg2 harg2 arg3 harg3 arg4 harg4 arg5 harg5 arg6 harg6 arg7 harg7 arg8 harg8 arg9 harg9 hc0 hc1 x0 x1 x2 x3 x4 = k0_pay4 x0 x2 x4 (k0_pay2 x1 x3) k0_pay3 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S64x128) hz2]
  rw [View.readCov_unit_zero (S := S64x128) arg9.view hz2, View.readCov_unit_zero (S := S64x128) arg8.view hz2]
  simp only [View.readAt_eq_ld, harg2.read_unread, harg3.read_unread, harg4.read_unread, harg5.read_unread, harg6.read_unread,
    harg8.read_unread, harg9.read_unread, View.ld_unit_zero (S := S1x4096x128) hz3, View.ld_unit_zero (S := S1x64x128) hz3,
    View.ld_unit_zero (S := S128x128) hz2, View.ld_unit_zero (S := S64x128) hz2]

/-! ## A middle tile -/

/-- The accumulator it leaves: the tile's step applied to the kept queries and the accumulator so far. -/
theorem acc_B (hc0 : ¬cond0_0 i) (hc1 : ¬cond0_1 i) :
    sout0_B_0 c i arg2 harg2 arg3 harg3 arg4 harg4 arg5 harg5 arg6 harg6 arg7 harg7 arg8 harg8 arg9 harg9 hc0 hc1 x0 x1 x2 x3 x4 xs0 xs1 = k0_pay4 x0 x2 x4 xs1 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 xs0 xs1)]
  unfold kernelRun0_B
  dsimp only
  rw [View.canon_unit_zero hz2]
  simp only [View.readAt_eq_ld, harg2.read_unread, harg3.read_unread, harg4.read_unread, harg5.read_unread, harg6.read_unread,
    harg8.read_unread, harg9.read_unread, View.ld_unit_zero (S := S1x4096x128) hz3, View.ld_unit_zero (S := S1x64x128) hz3,
    View.ld_unit_zero (S := S128x128) hz2, View.ld_unit_zero (S := S64x128) hz2]

/-! ## Last tile of a batch -/

/-- The accumulator it leaves: as a middle tile. -/
theorem acc_C (hc0 : ¬cond0_0 i) (hc1 : cond0_1 i) :
    sout0_C_0 c i arg2 harg2 arg3 harg3 arg4 harg4 arg5 harg5 arg6 harg6 arg7 harg7 arg8 harg8 arg9 harg9 hc0 hc1 x0 x1 x2 x3 x4 xs0 xs1 = k0_pay4 x0 x2 x4 xs1 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz2]
  simp only [View.readAt_eq_ld, harg2.read_unread, harg3.read_unread, harg4.read_unread, harg5.read_unread, harg6.read_unread,
    harg8.read_unread, harg9.read_unread, View.ld_unit_zero (S := S1x4096x128) hz3, View.ld_unit_zero (S := S1x64x128) hz3,
    View.ld_unit_zero (S := S128x128) hz2, View.ld_unit_zero (S := S64x128) hz2]

/-- The output block it leaves: that accumulator, given a leading unit axis. -/
theorem out_C (hc0 : ¬cond0_0 i) (hc1 : cond0_1 i) :
    out0_C_5 c i arg2 harg2 arg3 harg3 arg4 harg4 arg5 harg5 arg6 harg6 arg7 harg7 arg8 harg8 arg9 harg9 hc0 hc1 x0 x1 x2 x3 x4 xs0 xs1 = k0_pay1 (k0_pay4 x0 x2 x4 xs1 xs0) := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz3]
  rw [View.readCov_unit_zero (S := S64x128) arg8.view hz2]
  simp only [View.readAt_eq_ld, harg2.read_unread, harg3.read_unread, harg4.read_unread, harg5.read_unread, harg6.read_unread,
    harg8.read_unread, harg9.read_unread, View.ld_unit_zero (S := S1x4096x128) hz3, View.ld_unit_zero (S := S1x64x128) hz3,
    View.ld_unit_zero (S := S128x128) hz2, View.ld_unit_zero (S := S64x128) hz2]

end Cert.KernelIdeal.Pieces

end
-- ==== Proof.Steps.lean ====
/-
  The grid walked point by point: what the accumulator, the slot queries and the output block hold after each point.

  Point t = 8·b + j handles tile j of batch b. After it:
    j = 0        the queries are S·Wq of the batch's slot block, the accumulator is the tile's step over the zero block;
    j > 0        the queries are what the point before left, the accumulator is the tile's step over what it left;
    j = 7        moreover the output block is the accumulator under a leading unit axis.
  These are the generated frame's per-case contents with each case's stores read back (Pieces), for any float type.
-/
import proofs.«165767_j52252572123213_1_alg».proof.Proof.Pieces

noncomputable section

open Idealize.ShloMosaic Idealize.ShloMosaic.TcCoe Idealize.SL.Sem

namespace Cert.KernelIdeal.Steps

open Cert.KernelIdeal Cert.KernelIdeal.Gen

variable {F : FTy → Type} [FloatOps F]
variable (m : (ℓ : Loc nD τ sig) → Buf (Elt F) ℓ) (c : Dev nD)

/-- The accumulator and the slot queries after point `n`. -/
abbrev accAt (n : ℕ) (h : n < cfg0.N) : Vec F S64x128 .f32 := (outsAt0 m c n h).2.1
abbrev qAt (n : ℕ) (h : n < cfg0.N) : Vec F S64x128 .f32 := (outsAt0 m c n h).2.2

/-- The first tile of a batch: fresh queries, the step over the zero block. -/
theorem first (t : Fin cfg0.N) (h0 : t.val % 8 = 0) :
    qAt m c t.val t.isLt = k0_pay2 (iblk m c 1 t) (iblk m c 3 t)
      ∧ accAt m c t.val t.isLt
          = k0_pay4 (iblk m c 0 t) (iblk m c 2 t) (iblk m c 4 t) (k0_pay2 (iblk m c 1 t) (iblk m c 3 t)) k0_pay3 := by
  have h1 : ¬t.val % 8 = 7 := by omega
  show (outsAt0 m c t.val t.isLt).2.2 = _ ∧ (outsAt0 m c t.val t.isLt).2.1 = _
  rw [outsAt0_A m c t h0 h1]
  exact ⟨Pieces.q_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) ((hcond0_0 t).mpr h0) (fun h => h1 ((hcond0_1 t).mp h)),
    Pieces.acc_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) ((hcond0_0 t).mpr h0) (fun h => h1 ((hcond0_1 t).mp h))⟩

/-- A later tile: the queries kept, the step over what the point before left. -/
theorem later (t : Fin cfg0.N) (h0 : ¬t.val % 8 = 0) :
    qAt m c t.val t.isLt = (outsAt0 m c (t.val - 1) (Nat.lt_of_le_of_lt (Nat.sub_le _ _) t.isLt)).2.2
      ∧ accAt m c t.val t.isLt
          = k0_pay4 (iblk m c 0 t) (iblk m c 2 t) (iblk m c 4 t) (outsAt0 m c (t.val - 1) (Nat.lt_of_le_of_lt (Nat.sub_le _ _) t.isLt)).2.2 (outsAt0 m c (t.val - 1) (Nat.lt_of_le_of_lt (Nat.sub_le _ _) t.isLt)).2.1 := by
  show (outsAt0 m c t.val t.isLt).2.2 = _ ∧ (outsAt0 m c t.val t.isLt).2.1 = _
  by_cases h1 : t.val % 8 = 7
  · rw [outsAt0_C m c t h0 h1]
    exact ⟨rfl, Pieces.acc_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2
      (fun h => h0 ((hcond0_0 t).mp h)) ((hcond0_1 t).mpr h1)⟩
  · rw [outsAt0_B m c t h0 h1]
    exact ⟨rfl, Pieces.acc_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2
      (fun h => h0 ((hcond0_0 t).mp h)) (fun h => h1 ((hcond0_1 t).mp h))⟩

/-- The last tile of a batch also leaves the output block: its new accumulator under a leading unit axis. -/
theorem last (t : Fin cfg0.N) (h1 : t.val % 8 = 7) :
    (outsAt0 m c t.val t.isLt).1
      = k0_pay1 (k0_pay4 (iblk m c 0 t) (iblk m c 2 t) (iblk m c 4 t) (outsAt0 m c (t.val - 1) (Nat.lt_of_le_of_lt (Nat.sub_le _ _) t.isLt)).2.2 (outsAt0 m c (t.val - 1) (Nat.lt_of_le_of_lt (Nat.sub_le _ _) t.isLt)).2.1) := by
  have h0 : ¬t.val % 8 = 0 := by omega
  rw [outsAt0_C m c t h0 h1]
  exact Pieces.out_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2
      (fun h => h0 ((hcond0_0 t).mp h)) ((hcond0_1 t).mpr h1)

end Cert.KernelIdeal.Steps

end
-- ==== Proof.Spec.lean ====
/-
  The slot encoder both programs compute, stated once on the extended reals, and the one law that joins them.

  For a batch b with rows X(b, n, ·) (n < 32768) and slots S(b, k, ·) (k < 64):
    the projected row       kx(n, ·) = X(b, n, ·) · Wk,   v(n, ·) = X(b, n, ·) · Wv,   the slot queries q(k, ·) = S(b, k, ·) · Wq;
    a slot's attention      attn(n, k) = logistic(scale · Σₑ kx(n, e) · q(k, e)) + eps;
    its normalised weight   w(n, k) = attn(n, k) / Σₖ' attn(n, k');
    the result              out(b, k, e) = Σₙ w(n, k) · v(n, e).
  The reference takes the sum over all 32768 rows at once. The kernel walks the rows in eight tiles of 4096, starts an
  accumulator at zero, and adds one tile's partial sum per step. Addition of extended reals is commutative and
  associative (the infinities included), so the running sum after the eighth tile is the whole sum: `tiles_eq`.
  Nothing here distributes a product over a sum or cancels, so no finiteness is needed.
-/
import Idealize.ShloMosaic.PureOps.Ideal
import Idealize.ShloMosaic.Lib.ValueIdx

noncomputable section

open scoped BigOperators

namespace Cert.SlotSpec

open Idealize.ShloMosaic

/-- The two float literals both programs carry: the score scale and the attention floor. Never evaluated. -/
def scale : EReal := Ideal.ofBits .f32 0x3DB504F3#32
def eps : EReal := Ideal.ofBits .f32 0x322BCC77#32

/-- A row against a matrix: entry `e` of `x · W`. -/
def rowMul (x : Fin 128 → EReal) (W : Fin 128 → Fin 128 → EReal) (e : Fin 128) : EReal := ∑ d : Fin 128, x d * W d e

/-- Slot `k`'s attention on a projected row: the floored logistic of the scaled score. -/
def attn (kx : Fin 128 → EReal) (q : Fin 64 → Fin 128 → EReal) (k : Fin 64) : EReal :=
  Ideal.logistic (scale * ∑ e : Fin 128, kx e * q k e) + eps

/-- … normalised over the 64 slots. -/
def weight (kx : Fin 128 → EReal) (q : Fin 64 → Fin 128 → EReal) (k : Fin 64) : EReal :=
  Ideal.div (attn kx q k) (∑ k' : Fin 64, attn kx q k')

/-- What one row `x` adds to slot `k`, feature `e`. -/
def contrib (x : Fin 128 → EReal) (Wk Wv : Fin 128 → Fin 128 → EReal) (q : Fin 64 → Fin 128 → EReal) (k : Fin 64)
    (e : Fin 128) : EReal :=
  weight (rowMul x Wk) q k * rowMul x Wv e

/-- Row `r` of tile `j` among the 32768 rows (tiles beyond the eighth wrap round; none is ever asked for). -/
def tileRow (j : ℕ) (r : Fin 4096) : Fin 32768 := ⟨(4096 * j + r.val) % 32768, Nat.mod_lt _ (by decide)⟩

theorem tileRow_val (j : ℕ) (hj : j < 8) (r : Fin 4096) : (tileRow j r).val = 4096 * j + r.val := by
  have := r.isLt
  show (4096 * j + r.val) % 32768 = _
  exact Nat.mod_eq_of_lt (by omega)

/-- THE RESULT: slot `k`, feature `e` of one batch, the sum over all its rows. -/
def slots (X : Fin 32768 → Fin 128 → EReal) (Wk Wv : Fin 128 → Fin 128 → EReal) (q : Fin 64 → Fin 128 → EReal)
    (k : Fin 64) (e : Fin 128) : EReal :=
  ∑ n : Fin 32768, contrib (X n) Wk Wv q k e

/-- One tile's partial sum. -/
def tileSum (X : Fin 32768 → Fin 128 → EReal) (Wk Wv : Fin 128 → Fin 128 → EReal) (q : Fin 64 → Fin 128 → EReal)
    (j : ℕ) (k : Fin 64) (e : Fin 128) : EReal :=
  ∑ r : Fin 4096, contrib (X (tileRow j r)) Wk Wv q k e

/-- The running sum an accumulator holds: the first term onto zero, then one more term per step. -/
def runSum {M : Type*} [AddCommMonoid M] (P : ℕ → M) : ℕ → M
  | 0 => 0 + P 0
  | j + 1 => runSum P j + P (j + 1)

theorem runSum_eq_sum {M : Type*} [AddCommMonoid M] (P : ℕ → M) (j : ℕ) :
    runSum P j = ∑ i ∈ Finset.range (j + 1), P i := by
  induction j with
  | zero => simp [runSum]
  | succ j ih => rw [runSum, ih]; exact (Finset.sum_range_succ P (j + 1)).symm

/-- A sum over `m · n` indices is the sum over `m` blocks of the sums over each block's `n` indices. -/
theorem sum_blocks {M : Type*} [AddCommMonoid M] {m n N : ℕ} (h : m * n = N) (f : Fin N → M) :
    ∑ i : Fin N, f i = ∑ a : Fin m, ∑ b : Fin n, f (Fin.cast h (finProdFinEquiv (a, b))) := by
  subst h
  rw [← Equiv.sum_comp finProdFinEquiv f, Fintype.sum_prod_type]
  rfl

/-- THE LAW: the accumulator after the eighth tile holds the sum over all rows. -/
theorem tiles_eq (X : Fin 32768 → Fin 128 → EReal) (Wk Wv : Fin 128 → Fin 128 → EReal) (q : Fin 64 → Fin 128 → EReal)
    (k : Fin 64) (e : Fin 128) :
    runSum (fun j => tileSum X Wk Wv q j k e) 7 = slots X Wk Wv q k e := by
  rw [runSum_eq_sum, Finset.sum_range]
  unfold slots tileSum
  rw [sum_blocks (m := 8) (n := 4096) (N := 32768) (by decide)]
  refine Finset.sum_congr rfl fun a _ => Finset.sum_congr rfl fun b _ => ?_
  have hrow : tileRow a.val b = Fin.cast (by decide : 8 * 4096 = 32768) (finProdFinEquiv (a, b)) := by
    apply Fin.ext
    rw [tileRow_val a.val a.isLt b]
    show _ = b.val + 4096 * a.val
    omega
  rw [hrow]

/-! ## Over the argument arrays -/

open Idealize.ShloMosaic.ValueIdx in
/-- Slot `k`, feature `e` of batch `b`, from the five argument arrays. -/
def encodeAt (X : (⟨3, ![8, 32768, 128]⟩ : Shape).Idx → EReal) (S : (⟨3, ![8, 64, 128]⟩ : Shape).Idx → EReal)
    (Wk Wq Wv : (⟨2, ![128, 128]⟩ : Shape).Idx → EReal) (b : Fin 8) (k : Fin 64) (e : Fin 128) : EReal :=
  slots (fun n d => X (ix3 b n d)) (fun d e' => Wk (ix2 d e')) (fun d e' => Wv (ix2 d e'))
    (fun k' e' => rowMul (fun h => S (ix3 b k' h)) (fun h e'' => Wq (ix2 h e'')) e') k e

/-- THE WHOLE RESULT: the 8 × 64 × 128 array both programs end with. -/
def encode (X : (⟨3, ![8, 32768, 128]⟩ : Shape).Idx → EReal) (S : (⟨3, ![8, 64, 128]⟩ : Shape).Idx → EReal)
    (Wk Wq Wv : (⟨2, ![128, 128]⟩ : Shape).Idx → EReal) : (⟨3, ![8, 64, 128]⟩ : Shape).Idx → EReal :=
  fun i => encodeAt X S Wk Wq Wv (i 0) (i 1) (i 2)

end Cert.SlotSpec

end
-- ==== Proof.LibRowGatherScatter.lean ====
/-
  Rows gathered, rows scattered and added, and a matrix product, each read at one element.

  A graph layer moves whole rows: edge `e` reads the row of its source node out of an array `[N, C]` (a gather with one
  start index per edge), and the rows of all edges that end in node `p` are added into row `p` of another array (a
  scatter with an `add` body). This file reads both operations, at the dimension numbers such a layer has, at one
  element `(e, c)` resp. `(p, c)`:

    • the gathered element `(e, c)` is the operand at `(rowOf idx e, c)`, where `rowOf idx e` is edge `e`'s index word read
      as a signed integer and clamped into `[0, N − 1]`;
    • the scattered-and-added element `(p, c)` is the operand's plus the sum, over the edges `e` whose index word read as a
      signed integer is `p` (`edgesInto idx p`), of the update at `(e, c)`; an index word outside `[0, N − 1]` names no node
      and its row is dropped.

  Neither the row `rowOf idx e` nor the edge set `edgesInto idx p` depends on the row width `C`: the same edges feed node
  `p` whether rows of width 3 or of width 32 are moved. The file also reads the product of an `[N, K]` by a `[K, M]`
  matrix at `(p, j)` as the sum over `k` of the products, and the three broadcasts such a layer uses (a scalar to any
  shape, a vector `[E]` to a column `[E, 1]`, a column `[E, 1]` to `[E, C]`) at one element.

  Everything is stated for arbitrary extents `N`, `E`, `C`, `K`, `M`; the dimension-number records are written out with
  their well-formedness condition as a parameter, so a record with the same lists over literal shapes is one of these
  by unfolding.
-/
import Idealize.ShloMosaic.Lib.ValueIdx
import Idealize.ShloMosaic.PureOps.Ideal.Laws
import Idealize.ShloMosaic.Lib.Pipeline.Value

noncomputable section

open scoped BigOperators

namespace Cert.LibRowGatherScatter

open Idealize.ShloMosaic Idealize.ShloMosaic.ValueIdx

/-! ## Gathering rows -/

/-- The dimension numbers of a gather of rows: operand `[N, C]`, one start index per edge (`[E, 1]`, the index vector on
    axis 1), result `[E, C]`; the operand's axis 0 is indexed and collapsed, its axis 1 is the result's offset axis 1, a
    slice is one whole row (`[1, C]`). -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge `e` reads: its index word as a signed integer, clamped into `[0, N − 1]`. It does not depend on the row
    width. -/
def rowOf {N E w : Nat} (hN : 0 < N) (idx : IVec ⟨2, ![E, 1]⟩ w) (e : Fin E) : Fin N :=
  ⟨min (idx (ix2 e 0)).toInt.toNat (N - 1), by omega⟩

/-- On the operand's row axis, the element a gather of rows reads for result element `(e, c)` lies in row `rowOf idx e`:
    the start index is clamped to `N − 1` (a slice is one row), and neither a batching nor an offset coordinate is added
    on a collapsed axis. -/
theorem operandIdx_row {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (((rowGatherDims N E C wf).operandIdx (ix2 e c) idx (0 : Fin 2) : Fin N) : ℕ) = (rowOf hN idx e : ℕ) := by
  show (rowGatherDims N E C wf).start (ix2 e c) idx (0 : Fin 2) + (rowGatherDims N E C wf).batchCoord (ix2 e c) (0 : Fin 2)
    + (rowGatherDims N E C wf).offCoord (ix2 e c) (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E C wf).startIndexMap from List.mem_singleton.mpr rfl)]
  have hsi : (rowGatherDims N E C wf).siIdx (ix2 e c) ⟨List.idxOf (0 : Fin 2) (rowGatherDims N E C wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- On the operand's column axis, the element a gather of rows reads for result element `(e, c)` is in column `c`: the
    axis is not indexed (start `0`) and the result's offset coordinate is `c`. -/
theorem operandIdx_col {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (((rowGatherDims N E C wf).operandIdx (ix2 e c) idx (1 : Fin 2) : Fin C) : ℕ) = (c : ℕ) := by
  show (rowGatherDims N E C wf).start (ix2 e c) idx (1 : Fin 2) + (rowGatherDims N E C wf).batchCoord (ix2 e c) (1 : Fin 2)
    + (rowGatherDims N E C wf).offCoord (ix2 e c) (1 : Fin 2) = _
  rw [GatherDims.batchCoord_eq_zero _ _ _ List.not_mem_nil]
  have hs : (rowGatherDims N E C wf).start (ix2 e c) idx (1 : Fin 2) = 0 := by
    unfold GatherDims.start
    rw [dif_neg (show (1 : Fin 2) ∉ ([0] : List (Fin 2)) by decide)]
  rw [hs]
  have hk : (1 : Fin 2) ∈ (rowGatherDims N E C wf).sKept :=
    (GatherDims.mem_sKept _ _).2 ⟨show (1 : Fin 2) ∉ ([0] : List (Fin 2)) by decide, List.not_mem_nil⟩
  unfold GatherDims.offCoord
  rw [dif_pos hk]
  simp only [Nat.zero_add, Nat.add_zero]
  rfl

/-- A GATHER OF ROWS READ AT `(e, c)`: the operand at row `rowOf idx e`, column `c`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (rowOf hN idx e) c) := by
  unfold Host.gather
  congr 1
  funext a
  match a with
  | ⟨0, _⟩ => exact Fin.ext (operandIdx_row hN wf idx e c)
  | ⟨1, _⟩ => exact Fin.ext (operandIdx_col wf idx e c)

/-! ## Scattering rows and adding them -/

/-- The dimension numbers of a scatter of rows: operand `[N, C]`, one scatter index per edge (`[E, 1]`, the index vector
    on axis 1), updates `[E, C]`; the scatter index names the operand's axis 0, which is an inserted window axis, and
    the updates' axis 1 is the window axis, going to the operand's axis 1. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The edges that end in node `p`: those whose index word, read as a signed integer, is `p`. It does not depend on the row
    width. -/
def edgesInto {N E w : Nat} (idx : IVec ⟨2, ![E, 1]⟩ w) (p : Fin N) : Finset (Fin E) :=
  Finset.univ.filter fun e => (idx (ix2 e 0)).toInt = (p.val : ℤ)

section Scatter
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c : Fin C)

/-- On the operand's row axis the window of update `(e, c)` starts at edge `e`'s index word, read signed, not clamped. -/
theorem scatter_start_row :
    (rowScatterDims N E C wf).start (ix2 e c) idx (0 : Fin 2) = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e c)
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the operand's column axis, which no scatter index names, the window starts at `0`. -/
theorem scatter_start_col :
    (rowScatterDims N E C wf).start (ix2 e c) idx (1 : Fin 2) = 0 := by
  unfold ScatterDims.start
  rw [dif_neg (show (1 : Fin 2) ∉ ([0] : List (Fin 2)) by decide)]

/-- The row axis is an inserted window axis: the window coordinate there is `0`. -/
theorem scatter_window_row :
    (rowScatterDims N E C wf).window (ix2 e c) (0 : Fin 2) = 0 := by
  unfold ScatterDims.window
  rw [dif_neg (by simp [ScatterDims.sKept, Shape.kept])]

/-- The column axis carries the updates' window axis: the window coordinate there is `c`. -/
theorem scatter_window_col :
    (rowScatterDims N E C wf).window (ix2 e c) (1 : Fin 2) = c.val := by
  unfold ScatterDims.window
  rw [dif_pos (by simp [ScatterDims.sKept, Shape.kept])]
  rfl

/-- Start plus window coordinate on the row axis: edge `e`'s index word, read signed. -/
theorem scatter_sum_row :
    (rowScatterDims N E C wf).start (ix2 e c) idx (0 : Fin 2) + ((rowScatterDims N E C wf).window (ix2 e c) (0 : Fin 2) : ℤ)
      = (idx (ix2 e 0)).toInt := by
  rw [scatter_start_row, scatter_window_row]; simp

/-- Start plus window coordinate on the column axis: `c`. -/
theorem scatter_sum_col :
    (rowScatterDims N E C wf).start (ix2 e c) idx (1 : Fin 2) + ((rowScatterDims N E C wf).window (ix2 e c) (1 : Fin 2) : ℤ)
      = (c.val : ℤ) := by
  rw [scatter_start_col, scatter_window_col]; simp

/-- WHERE AN UPDATE LANDS: update `(e, c)` lands at operand element `(p, c')` exactly when edge `e`'s index word, read
    signed, is `p` and `c = c'`. (An index word that is negative or at least `N` lands nowhere.) -/
theorem resultIdx?_rows_eq_some_iff (p : Fin N) (c' : Fin C) :
    (rowScatterDims N E C wf).resultIdx? (ix2 e c) idx = some (ix2 p c') ↔ ((idx (ix2 e 0)).toInt = (p.val : ℤ) ∧ c = c') := by
  have h0 := scatter_sum_row wf idx e c
  have h1 := scatter_sum_col wf idx e c
  unfold ScatterDims.resultIdx?
  split
  · rename_i h
    rw [Option.some.injEq]
    constructor
    · intro hf
      have e0 : ((rowScatterDims N E C wf).start (ix2 e c) idx (0 : Fin 2)
          + ((rowScatterDims N E C wf).window (ix2 e c) (0 : Fin 2) : ℤ)).toNat = p.val :=
        congrArg Fin.val (congrFun hf (0 : Fin 2))
      have e1 : ((rowScatterDims N E C wf).start (ix2 e c) idx (1 : Fin 2)
          + ((rowScatterDims N E C wf).window (ix2 e c) (1 : Fin 2) : ℤ)).toNat = c'.val :=
        congrArg Fin.val (congrFun hf (1 : Fin 2))
      have hh := (h (0 : Fin 2)).1
      rw [h0] at e0 hh
      rw [h1] at e1
      exact ⟨by omega, Fin.ext (by omega)⟩
    · rintro ⟨ht, rfl⟩
      funext a
      match a with
      | ⟨0, _⟩ =>
        refine Fin.ext ?_
        show ((rowScatterDims N E C wf).start (ix2 e c) idx (0 : Fin 2)
          + ((rowScatterDims N E C wf).window (ix2 e c) (0 : Fin 2) : ℤ)).toNat = p.val
        rw [h0, ht]; simp
      | ⟨1, _⟩ =>
        refine Fin.ext ?_
        show ((rowScatterDims N E C wf).start (ix2 e c) idx (1 : Fin 2)
          + ((rowScatterDims N E C wf).window (ix2 e c) (1 : Fin 2) : ℤ)).toNat = c.val
        rw [h1]; simp
  · rename_i h
    constructor
    · intro hf; cases hf
    · rintro ⟨ht, rfl⟩
      exfalso; apply h; intro a
      match a with
      | ⟨0, _⟩ =>
        show 0 ≤ (rowScatterDims N E C wf).start (ix2 e c) idx (0 : Fin 2)
            + ((rowScatterDims N E C wf).window (ix2 e c) (0 : Fin 2) : ℤ)
          ∧ (rowScatterDims N E C wf).start (ix2 e c) idx (0 : Fin 2)
            + ((rowScatterDims N E C wf).window (ix2 e c) (0 : Fin 2) : ℤ) < ((N : ℕ) : ℤ)
        rw [h0, ht]
        have := p.isLt
        omega
      | ⟨1, _⟩ =>
        show 0 ≤ (rowScatterDims N E C wf).start (ix2 e c) idx (1 : Fin 2)
            + ((rowScatterDims N E C wf).window (ix2 e c) (1 : Fin 2) : ℤ)
          ∧ (rowScatterDims N E C wf).start (ix2 e c) idx (1 : Fin 2)
            + ((rowScatterDims N E C wf).window (ix2 e c) (1 : Fin 2) : ℤ) < ((C : ℕ) : ℤ)
        rw [h1]
        have := c.isLt
        omega

end Scatter

/-- A SCATTER-ADD OF ROWS READ AT `(p, c)`, on the extended reals: the operand's element plus the sum over the edges that
    end in `p` of the update at `(e, c)`. The sum over all update elements that land at `(p, c)` is split by
    coordinates; in row `e` only column `c` can land there, and it does exactly when `e` ends in `p`. -/
theorem scatterAdd_rows_apply {N E C w : Nat} (wf : ScatterDims.WF ⟨2, ![N, C]⟩ ⟨2, ![E, 1]⟩ ⟨2, ![E, C]⟩ [1] [0] [0] 1)
    (idx : IVec ⟨2, ![E, 1]⟩ w) {φ : FTy} (x : FVec Ideal ⟨2, ![N, C]⟩ φ) (upd : FVec Ideal ⟨2, ![E, C]⟩ φ)
    (p : Fin N) (c : Fin C) :
    Host.scatterAdd (F := Ideal) (rowScatterDims N E C wf) x idx upd (ix2 p c)
      = x (ix2 p c) + ∑ e ∈ edgesInto idx p, upd (ix2 e c) := by
  show x (ix2 p c) + ∑ j ∈ Finset.univ.filter (fun j => (rowScatterDims N E C wf).resultIdx? j idx = some (ix2 p c)), upd j = _
  congr 1
  unfold edgesInto
  rw [Finset.sum_filter, Finset.sum_filter, sum_idx2]
  refine Finset.sum_congr rfl fun e _ => ?_
  simp only [resultIdx?_rows_eq_some_iff]
  by_cases ht : (idx (ix2 e 0)).toInt = (p.val : ℤ)
  · simp only [ht, true_and, if_true]
    exact Finset.sum_ite_eq' Finset.univ c (fun b => upd (ix2 e b)) |>.trans (by simp)
  · simp [ht]

/-! ## A matrix product -/

/-- The dimension numbers of the product of an `[N, K]` by a `[K, M]` matrix: the left operand's axis 1 contracted with
    the right operand's axis 0, no batch axes. -/
abbrev rowDotDims (N K M : Nat)
    (wf : DotDims.WF ⟨2, ![N, K]⟩ ⟨2, ![K, M]⟩ ⟨2, ![N, M]⟩ [1] [0] [0] [1] [] []) :
    DotDims ⟨2, ![N, K]⟩ ⟨2, ![K, M]⟩ ⟨2, ![N, M]⟩ where
  lhsContracting := [1]
  rhsContracting := [0]
  lhsNonContracting := [0]
  rhsNonContracting := [1]
  lhsBatch := []
  rhsBatch := []
  wf := wf

section Dot
variable {N K M : Nat} (wf : DotDims.WF ⟨2, ![N, K]⟩ ⟨2, ![K, M]⟩ ⟨2, ![N, M]⟩ [1] [0] [0] [1] [] [])

/-- The left operand is read in the result's row. -/
theorem dot_lhs_row (i : (⟨2, ![N, M]⟩ : Shape).Idx) (q : (rowDotDims N K M wf).contr.Idx) :
    ((rowDotDims N K M wf).lhsIdx i q (0 : Fin 2)).val = (i 0).val := by
  unfold DotDims.lhsIdx
  rw [dif_neg (show (0 : Fin 2) ∉ (rowDotDims N K M wf).lhsBatch from List.not_mem_nil),
    dif_pos (show (0 : Fin 2) ∈ (rowDotDims N K M wf).lhsNonContracting from List.mem_singleton.mpr rfl)]
  rfl

/-- The left operand is read in the column the contraction position names. -/
theorem dot_lhs_col (i : (⟨2, ![N, M]⟩ : Shape).Idx) (q : (rowDotDims N K M wf).contr.Idx) :
    ((rowDotDims N K M wf).lhsIdx i q (1 : Fin 2)).val = (q ⟨0, Nat.one_pos⟩).val :=
  (rowDotDims N K M wf).lhsIdx_val_of_single rfl i q

/-- The right operand is read in the row the contraction position names. -/
theorem dot_rhs_row (i : (⟨2, ![N, M]⟩ : Shape).Idx) (q : (rowDotDims N K M wf).contr.Idx) :
    ((rowDotDims N K M wf).rhsIdx i q (0 : Fin 2)).val = (q ⟨0, Nat.one_pos⟩).val :=
  (rowDotDims N K M wf).rhsIdx_val_of_single rfl i q

/-- The right operand is read in the result's column. -/
theorem dot_rhs_col (i : (⟨2, ![N, M]⟩ : Shape).Idx) (q : (rowDotDims N K M wf).contr.Idx) :
    ((rowDotDims N K M wf).rhsIdx i q (1 : Fin 2)).val = (i 1).val := by
  unfold DotDims.rhsIdx
  rw [dif_neg (show (1 : Fin 2) ∉ (rowDotDims N K M wf).rhsBatch from List.not_mem_nil),
    dif_pos (show (1 : Fin 2) ∈ (rowDotDims N K M wf).rhsNonContracting from List.mem_singleton.mpr rfl)]
  rfl

/-- A MATRIX PRODUCT READ AT `(p, j)`, on the extended reals: the sum over `k` of left `(p, k)` times right `(k, j)`. -/
theorem dotGeneral_rows_apply {φ₁ φ₂ : FTy} (prec : Option ContractPrecision)
    (l : FVec Ideal ⟨2, ![N, K]⟩ φ₁) (r : FVec Ideal ⟨2, ![K, M]⟩ φ₂) (p : Fin N) (j : Fin M) :
    Host.dotGeneral (rowDotDims N K M wf) prec l r (ix2 p j) = ∑ k : Fin K, l (ix2 p k) * r (ix2 k j) := by
  simp only [Host.dotGeneral]
  rw [Ideal.dotGeneral_apply, ← Equiv.sum_comp (contrEquiv1 (rowDotDims N K M wf) K rfl rfl).symm]
  refine Finset.sum_congr rfl fun k _ => ?_
  have hk := contrEquiv1_symm_val (rowDotDims N K M wf) K rfl rfl k
  have el : (rowDotDims N K M wf).lhsIdx (ix2 p j) ((contrEquiv1 (rowDotDims N K M wf) K rfl rfl).symm k) = ix2 p k :=
    funext fun a => Fin.ext (by
      match a with
      | ⟨0, _⟩ => exact dot_lhs_row wf _ _
      | ⟨1, _⟩ => exact (dot_lhs_col wf _ _).trans hk)
  have er : (rowDotDims N K M wf).rhsIdx (ix2 p j) ((contrEquiv1 (rowDotDims N K M wf) K rfl rfl).symm k) = ix2 k j :=
    funext fun a => Fin.ext (by
      match a with
      | ⟨0, _⟩ => exact (dot_rhs_row wf _ _).trans hk
      | ⟨1, _⟩ => exact dot_rhs_col wf _ _)
  rw [el, er]

end Dot

/-! ## Broadcasts -/

section Broadcast
variable {α : Type}

/-- A scalar broadcast to any shape reads the scalar everywhere. -/
theorem bcast_scalar_apply {t : Shape} (h : (⟨0, ![]⟩ : Shape).BroadcastsInDim t (![] : Fin 0 → Fin t.rank))
    (y : (⟨0, ![]⟩ : Shape).Idx → α) (i : t.Idx) : broadcastInDim t ![] h y i = y ix0 :=
  broadcastInDim_apply _ h y i ix0 (fun a => a.elim0)

/-- A vector `[E]` (more than one element, or none) broadcast to a column `[E, 1]` reads element `e` in row `e`. -/
theorem bcast_col_apply {E : Nat} (hE : E ≠ 1)
    (h : (⟨1, ![E]⟩ : Shape).BroadcastsInDim ⟨2, ![E, 1]⟩ (![0] : Fin 1 → Fin 2))
    (y : (⟨1, ![E]⟩ : Shape).Idx → α) (e : Fin E) (z : Fin 1) :
    broadcastInDim ⟨2, ![E, 1]⟩ ![0] h y (ix2 e z) = y (ix1 e) :=
  broadcastInDim_apply _ h y (ix2 e z) (ix1 e) (fun a => match a with
    | ⟨0, _⟩ => by show e.val = if E = 1 then 0 else e.val; rw [if_neg hE])

/-- A column `[E, 1]` broadcast along its unit axis to `[E, C]` reads the column's element of row `e` everywhere in row
    `e`. -/
theorem bcast_row_apply {E C : Nat} (hE : E ≠ 1)
    (h : (⟨2, ![E, 1]⟩ : Shape).BroadcastsInDim ⟨2, ![E, C]⟩ (![0, 1] : Fin 2 → Fin 2))
    (y : (⟨2, ![E, 1]⟩ : Shape).Idx → α) (e : Fin E) (c : Fin C) :
    broadcastInDim ⟨2, ![E, C]⟩ ![0, 1] h y (ix2 e c) = y (ix2 e 0) :=
  broadcastInDim_apply _ h y (ix2 e c) (ix2 e 0) (fun a => match a with
    | ⟨0, _⟩ => by show e.val = if E = 1 then 0 else e.val; rw [if_neg hE]
    | ⟨1, _⟩ => by show 0 = if (1 : Nat) = 1 then 0 else c.val; rw [if_pos rfl])

end Broadcast

end Cert.LibRowGatherScatter

end
-- ==== Proof.LibMatmulRows.lean ====
/-
  A matrix product into a zero accumulator, read at one element.

  The matrix unit's product of an `[N, K]` by a `[K, M]` array, accumulated into the zero array, is at `(p, j)` the sum
  over `k` of left `(p, k)` times right `(k, j)` on the extended reals: no rounding, no order of summation left in it.
  Stated for arbitrary extents over the dimension numbers "contract the left operand's axis 1 with the right operand's
  axis 0, no batch axes".
-/
import proofs.«165767_j52252572123213_1_alg».proof.Proof.LibRowGatherScatter

noncomputable section

open scoped BigOperators

namespace Cert.LibMatmulRows

open Idealize.ShloMosaic Idealize.ShloMosaic.ValueIdx Cert.LibRowGatherScatter

/-- THE PRODUCT INTO ZERO READ AT `(p, j)`: the sum over `k` of left `(p, k)` times right `(k, j)`. -/
theorem matmul_zero_rows_apply {N K M : Nat} (wf : DotDims.WF ⟨2, ![N, K]⟩ ⟨2, ![K, M]⟩ ⟨2, ![N, M]⟩ [1] [0] [0] [1] [] [])
    {φ₁ φ₂ : FTy} (prec : Option ContractPrecision)
    (l : FVec Ideal ⟨2, ![N, K]⟩ φ₁) (r : FVec Ideal ⟨2, ![K, M]⟩ φ₂) (p : Fin N) (j : Fin M) :
    FloatOps.matmul (rowDotDims N K M wf) prec l r (constant ⟨2, ![N, M]⟩ .f32 0x00000000#32) (ix2 p j)
      = ∑ k : Fin K, l (ix2 p k) * r (ix2 k j) := by
  rw [Ideal.matmul_constant_zero_apply, ← Equiv.sum_comp (contrEquiv1 (rowDotDims N K M wf) K rfl rfl).symm]
  refine Finset.sum_congr rfl fun k _ => ?_
  have hk := contrEquiv1_symm_val (rowDotDims N K M wf) K rfl rfl k
  have el : (rowDotDims N K M wf).lhsIdx (ix2 p j) ((contrEquiv1 (rowDotDims N K M wf) K rfl rfl).symm k) = ix2 p k :=
    funext fun a => Fin.ext (by
      match a with
      | ⟨0, _⟩ => exact dot_lhs_row wf _ _
      | ⟨1, _⟩ => exact (dot_lhs_col wf _ _).trans hk)
  have er : (rowDotDims N K M wf).rhsIdx (ix2 p j) ((contrEquiv1 (rowDotDims N K M wf) K rfl rfl).symm k) = ix2 k j :=
    funext fun a => Fin.ext (by
      match a with
      | ⟨0, _⟩ => exact (dot_rhs_row wf _ _).trans hk
      | ⟨1, _⟩ => exact dot_rhs_col wf _ _)
  rw [el, er]

end Cert.LibMatmulRows

end
-- ==== Proof.LibDenseRowT.lean ====
/-
  A product with a matrix stored output-channel-major, on the extended reals.

  When the weights of a dense layer are kept as W(j, k) — one row per output channel j, one column per input feature k —
  the layer's product with a batch of rows X is X · Wᵀ:

      (X · Wᵀ)(p, j) = Σₖ X(p, k) · W(j, k),

  a contraction of the SECOND axis of both operands. This file reads that contraction, accumulated into a zero array,
  at one entry, for any extents. Only the definition of the product on the extended reals is opened; no law of
  arithmetic is used, so nothing here needs finiteness.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibDenseRowT

open Idealize.ShloMosaic Idealize.ShloMosaic.ValueIdx

/-- The dimension numbers of X · Wᵀ: rows of X against rows of W, both contracted on their second axis. -/
abbrev dotT (M K N : Nat) (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

variable {M K N : Nat} (wf : DotDims.WF ⟨2, ![M, K]⟩ ⟨2, ![N, K]⟩ ⟨2, ![M, N]⟩ [1] [1] [0] [0] [] [])

/-- The left operand is read in the output's row. -/
theorem lhs_row (i : (⟨2, ![M, N]⟩ : Shape).Idx) (q : (dotT M K N wf).contr.Idx) :
    ((dotT M K N wf).lhsIdx i q 0).val = (i 0).val := by
  unfold DotDims.lhsIdx
  rw [dif_neg (show ¬(0 : Fin (⟨2, ![M, K]⟩ : Shape).rank) ∈ (dotT M K N wf).lhsBatch from List.not_mem_nil),
    dif_pos (show (0 : Fin (⟨2, ![M, K]⟩ : Shape).rank) ∈ (dotT M K N wf).lhsNonContracting from List.mem_singleton.mpr rfl)]
  rfl

/-- The right operand is read in the row numbered by the output's column. -/
theorem rhs_row (i : (⟨2, ![M, N]⟩ : Shape).Idx) (q : (dotT M K N wf).contr.Idx) :
    ((dotT M K N wf).rhsIdx i q 0).val = (i 1).val := by
  unfold DotDims.rhsIdx
  rw [dif_neg (show ¬(0 : Fin (⟨2, ![N, K]⟩ : Shape).rank) ∈ (dotT M K N wf).rhsBatch from List.not_mem_nil),
    dif_pos (show (0 : Fin (⟨2, ![N, K]⟩ : Shape).rank) ∈ (dotT M K N wf).rhsNonContracting from List.mem_singleton.mpr rfl)]
  rfl

/-- The contraction at entry (p, j) runs over the one shared axis: the sum over k of X(p, k) · W(j, k). -/
theorem contraction (l : (⟨2, ![M, K]⟩ : Shape).Idx → EReal) (r : (⟨2, ![N, K]⟩ : Shape).Idx → EReal) (p : Fin M) (j : Fin N) :
    ∑ c : (dotT M K N wf).contr.Idx, l ((dotT M K N wf).lhsIdx (ix2 p j) c) * r ((dotT M K N wf).rhsIdx (ix2 p j) c)
      = ∑ k : Fin K, l (ix2 p k) * r (ix2 j k) := by
  rw [← Equiv.sum_comp (contrEquiv1 (dotT M K N wf) K rfl rfl).symm]
  refine Finset.sum_congr rfl fun k _ => ?_
  have hk := contrEquiv1_symm_val (dotT M K N wf) K rfl rfl k
  have el : (dotT M K N wf).lhsIdx (ix2 p j) ((contrEquiv1 (dotT M K N wf) K rfl rfl).symm k) = ix2 p k :=
    funext fun a => Fin.ext (by
      match a with
      | ⟨0, _⟩ => exact lhs_row wf _ _
      | ⟨1, _⟩ => exact ((dotT M K N wf).lhsIdx_val_of_single rfl (ix2 p j) _).trans hk)
  have er : (dotT M K N wf).rhsIdx (ix2 p j) ((contrEquiv1 (dotT M K N wf) K rfl rfl).symm k) = ix2 j k :=
    funext fun a => Fin.ext (by
      match a with
      | ⟨0, _⟩ => exact rhs_row wf _ _
      | ⟨1, _⟩ => exact ((dotT M K N wf).rhsIdx_val_of_single rfl (ix2 p j) _).trans hk)
  rw [el, er]

/-- X · Wᵀ accumulated into the zero array, at entry (p, j). -/
theorem matmulT_zero_apply {φ₁ φ₂ : FTy} (prec : Option ContractPrecision)
    (X : FVec Ideal ⟨2, ![M, K]⟩ φ₁) (W : FVec Ideal ⟨2, ![N, K]⟩ φ₂) (p : Fin M) (j : Fin N) :
    matmul (dotT M K N wf) prec X W (constant ⟨2, ![M, N]⟩ .f32 0x00000000#32) (ix2 p j)
      = ∑ k : Fin K, X (ix2 p k) * W (ix2 j k) :=
  (Ideal.matmul_constant_zero_apply (dotT M K N wf) prec X W (ix2 p j)).trans (contraction wf X W p j)

end Cert.LibDenseRowT

end
-- ==== Proof.LibMatmulLeftT.lean ====
/-
  A product with the LEFT matrix transposed, on the extended reals.

  When a batch of N rows carries, per row n, a vector of K weights A(n, ·) and a vector of E features B(n, ·), the
  weighted sum of the feature rows per weight channel is Aᵀ · B:

      (Aᵀ · B)(k, e) = Σₙ A(n, k) · B(n, e),

  a contraction of the FIRST axis of both operands. This file reads that contraction, accumulated into a zero array,
  at one entry, for any extents. Only the definition of the product on the extended reals is opened; no law of
  arithmetic is used, so nothing here needs finiteness.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibMatmulLeftT

open Idealize.ShloMosaic Idealize.ShloMosaic.ValueIdx

/-- The dimension numbers of Aᵀ · B: columns of A against columns of B, both contracted on their first axis. -/
abbrev dotLT (N K E : Nat) (wf : DotDims.WF ⟨2, ![N, K]⟩ ⟨2, ![N, E]⟩ ⟨2, ![K, E]⟩ [0] [0] [1] [1] [] []) :
    DotDims ⟨2, ![N, K]⟩ ⟨2, ![N, E]⟩ ⟨2, ![K, E]⟩ where
  lhsContracting := [0]
  rhsContracting := [0]
  lhsNonContracting := [1]
  rhsNonContracting := [1]
  lhsBatch := []
  rhsBatch := []
  wf := wf

variable {N K E : Nat} (wf : DotDims.WF ⟨2, ![N, K]⟩ ⟨2, ![N, E]⟩ ⟨2, ![K, E]⟩ [0] [0] [1] [1] [] [])

/-- The left operand is read in the column numbered by the output's row. -/
theorem lhs_col (i : (⟨2, ![K, E]⟩ : Shape).Idx) (q : (dotLT N K E wf).contr.Idx) :
    ((dotLT N K E wf).lhsIdx i q 1).val = (i 0).val := by
  unfold DotDims.lhsIdx
  rw [dif_neg (show ¬(1 : Fin (⟨2, ![N, K]⟩ : Shape).rank) ∈ (dotLT N K E wf).lhsBatch from List.not_mem_nil),
    dif_pos (show (1 : Fin (⟨2, ![N, K]⟩ : Shape).rank) ∈ (dotLT N K E wf).lhsNonContracting from List.mem_singleton.mpr rfl)]
  rfl

/-- The right operand is read in the output's column. -/
theorem rhs_col (i : (⟨2, ![K, E]⟩ : Shape).Idx) (q : (dotLT N K E wf).contr.Idx) :
    ((dotLT N K E wf).rhsIdx i q 1).val = (i 1).val := by
  unfold DotDims.rhsIdx
  rw [dif_neg (show ¬(1 : Fin (⟨2, ![N, E]⟩ : Shape).rank) ∈ (dotLT N K E wf).rhsBatch from List.not_mem_nil),
    dif_pos (show (1 : Fin (⟨2, ![N, E]⟩ : Shape).rank) ∈ (dotLT N K E wf).rhsNonContracting from List.mem_singleton.mpr rfl)]
  rfl

/-- The contraction at entry (k, e) runs over the one shared axis: the sum over n of A(n, k) · B(n, e). -/
theorem contraction (l : (⟨2, ![N, K]⟩ : Shape).Idx → EReal) (r : (⟨2, ![N, E]⟩ : Shape).Idx → EReal) (k : Fin K) (e : Fin E) :
    ∑ c : (dotLT N K E wf).contr.Idx, l ((dotLT N K E wf).lhsIdx (ix2 k e) c) * r ((dotLT N K E wf).rhsIdx (ix2 k e) c)
      = ∑ n : Fin N, l (ix2 n k) * r (ix2 n e) := by
  rw [← Equiv.sum_comp (contrEquiv1 (dotLT N K E wf) N rfl rfl).symm]
  refine Finset.sum_congr rfl fun n _ => ?_
  have hn := contrEquiv1_symm_val (dotLT N K E wf) N rfl rfl n
  have el : (dotLT N K E wf).lhsIdx (ix2 k e) ((contrEquiv1 (dotLT N K E wf) N rfl rfl).symm n) = ix2 n k :=
    funext fun a => Fin.ext (by
      match a with
      | ⟨0, _⟩ => exact ((dotLT N K E wf).lhsIdx_val_of_single rfl (ix2 k e) _).trans hn
      | ⟨1, _⟩ => exact lhs_col wf _ _)
  have er : (dotLT N K E wf).rhsIdx (ix2 k e) ((contrEquiv1 (dotLT N K E wf) N rfl rfl).symm n) = ix2 n e :=
    funext fun a => Fin.ext (by
      match a with
      | ⟨0, _⟩ => exact ((dotLT N K E wf).rhsIdx_val_of_single rfl (ix2 k e) _).trans hn
      | ⟨1, _⟩ => exact rhs_col wf _ _)
  rw [el, er]

/-- Aᵀ · B accumulated into the zero array, at entry (k, e). -/
theorem matmulLT_zero_apply {φ₁ φ₂ : FTy} (prec : Option ContractPrecision)
    (A : FVec Ideal ⟨2, ![N, K]⟩ φ₁) (B : FVec Ideal ⟨2, ![N, E]⟩ φ₂) (k : Fin K) (e : Fin E) :
    matmul (dotLT N K E wf) prec A B (constant ⟨2, ![K, E]⟩ .f32 0x00000000#32) (ix2 k e)
      = ∑ n : Fin N, A (ix2 n k) * B (ix2 n e) :=
  (Ideal.matmul_constant_zero_apply (dotLT N K E wf) prec A B (ix2 k e)).trans (contraction wf A B k e)

end Cert.LibMatmulLeftT

end
-- ==== Proof.LibRowReduce.lean ====
/-
  Reductions along the rows of a matrix, on the extended reals.

  For a matrix z with M rows and N columns, the largest entry of row p and the sum of row p,

      max_q z(p, q)        and        ∑_q z(p, q),

  are computed by a program in one of two spellings: a reduction over the lanes of a vector started from the
  operation's neutral element (-∞ for the maximum, 0 for the sum), or a whole-array reduction started from a
  scalar initial value. This file reads each spelling at a row p. The maximum is stated as the supremum of the row
  in the complete order of the extended reals, whose least element is -∞; a maximum taken step by step from -∞ is
  that supremum because both are the least upper bound of the row: no order of the steps is followed. It also reads,
  at an entry, the changes of layout that carry a per-row number back across the columns: a length-M vector seen as
  an M × 1 column, and a column copied across N columns.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost

noncomputable section

open scoped BigOperators

namespace Cert.LibRowReduce

open Idealize.ShloMosaic Idealize.ShloMosaic.ValueIdx

/-! ## The order-theoretic core -/

/-- A maximum accumulated from -∞ over a finite family is the family's supremum: an upper bound of one is an upper
    bound of the other. -/
theorem fold_max_bot_eq_sup {ι : Type*} (s : Finset ι) (g : ι → EReal) : s.fold max ⊥ g = s.sup g :=
  eq_of_forall_ge_iff fun c => by
    rw [Finset.fold_max_le, Finset.sup_le_iff]
    exact ⟨fun h => h.2, fun h => ⟨bot_le, h⟩⟩

/-- The single-precision pattern of -∞ is the least extended real. -/
theorem negInf_f32 : Ideal.ofBits .f32 0xFF800000#32 = ⊥ := by simp [Ideal.ofBits, Ideal.ieee]

/-! ## Rows of an M × N matrix -/

/-- Dropping the column axis of an M × N matrix leaves a length-M vector. -/
theorem reduces_row (M N : Nat) : Shape.Reduces ⟨2, ![M, N]⟩ [1] ⟨1, ![M]⟩ :=
  ⟨(by decide : 1 = ((List.finRange 2).filter (· ∉ [(1 : Fin 2)])).length), Nat.one_pos, fun b => by match b with | ⟨0, _⟩ => rfl⟩

/-- The entry of row p at column q is the row index p with q inserted on the dropped axis. -/
theorem lift_row (M N : Nat) (h : Shape.Reduces ⟨2, ![M, N]⟩ [1] ⟨1, ![M]⟩) (p : Fin M) (q : Fin N) :
    h.lift (ix1 p) q = ix2 p q :=
  funext fun a => Fin.ext (by
    match a with
    | ⟨0, _⟩ => rfl
    | ⟨1, _⟩ => rfl)

/-- A lane maximum started from -∞, at row p: the supremum of the row. -/
theorem rowMax_apply (M N : Nat) (src : FVec Ideal ⟨2, ![M, N]⟩ .f32) (h : Shape.Reduces ⟨2, ![M, N]⟩ [1] ⟨1, ![M]⟩)
    (hφ : FKind.Formats .f32) (hacc : (0xFF800000#32 : BitVec 32) = 0xFF800000#32) (p : Fin M) :
    multiReduction .maximumf [1] ⟨1, ![M]⟩ src 0xFF800000#32 h hφ hacc (ix1 p)
      = Finset.univ.sup fun q : Fin N => src (ix2 p q) := by
  refine (Ideal.multiReduction_maximumf_single src 0xFF800000#32 h hφ hacc (ix1 p)).trans ?_
  rw [Ideal.ofBits_def, negInf_f32]
  refine (fold_max_bot_eq_sup _ _).trans ?_
  exact congrArg (Finset.univ.sup) (funext fun q => congrArg src (lift_row M N h p q))

/-- A lane sum started from 0, at row p: the sum of the row. -/
theorem rowSum_apply (M N : Nat) (src : FVec Ideal ⟨2, ![M, N]⟩ .f32) (h : Shape.Reduces ⟨2, ![M, N]⟩ [1] ⟨1, ![M]⟩)
    (hφ : FKind.Formats .f32) (hacc : (0x00000000#32 : BitVec 32) = 0x00000000#32) (p : Fin M) :
    multiReduction .add [1] ⟨1, ![M]⟩ src 0x00000000#32 h hφ hacc (ix1 p) = ∑ q : Fin N, src (ix2 p q) := by
  refine (Ideal.multiReduction_add_single src 0x00000000#32 h hφ hacc (ix1 p)).trans ?_
  exact Finset.sum_congr rfl fun q _ => congrArg src (lift_row M N h p q)

/-- A whole-array maximum along the rows started from the scalar -∞, at row p: the supremum of the row. -/
theorem hostRowMax_apply (M N : Nat) (x : FVec Ideal ⟨2, ![M, N]⟩ .f32)
    (h' : Shape.ReducesTo ⟨2, ![M, N]⟩ [1] ⟨1, ![M]⟩) (hu : 0 < (⟨0, ![]⟩ : Shape).numel) (p : Fin M) :
    Host.reduce FloatOps.maximumf x (constant (F := Ideal) ⟨0, ![]⟩ .f32 0xFF800000#32) h' hu (ix1 p)
      = Finset.univ.sup fun q : Fin N => x (ix2 p q) := by
  refine (Host.reduce_eq_fold_single FloatOps.maximumf x _ h' (reduces_row M N) hu (ix1 p)).trans ?_
  show (Finset.univ : Finset (Fin N)).fold max (Ideal.ofBits .f32 0xFF800000#32) (x ∘ (reduces_row M N).lift (ix1 p)) = _
  rw [negInf_f32]
  refine (fold_max_bot_eq_sup _ _).trans ?_
  exact congrArg (Finset.univ.sup) (funext fun q => congrArg x (lift_row M N _ p q))

/-- A whole-array sum along the rows started from a scalar, at row p: the scalar plus the sum of the row. -/
theorem hostRowSum_apply (M N : Nat) (x : FVec Ideal ⟨2, ![M, N]⟩ .f32) (init : (⟨0, ![]⟩ : Shape).Idx → Ideal .f32)
    (h' : Shape.ReducesTo ⟨2, ![M, N]⟩ [1] ⟨1, ![M]⟩) (hu : 0 < (⟨0, ![]⟩ : Shape).numel) (p : Fin M) :
    Host.reduceAdd x init h' hu (ix1 p) = init (Shape.Idx.first hu) + ∑ q : Fin N, x (ix2 p q) := by
  refine (hostReduceAdd_apply x init h' hu (ix1 p)).trans ?_
  refine (Ideal.hostReduceAdd_single h' (reduces_row M N) x _ (ix1 p)).trans ?_
  exact congrArg (init (Shape.Idx.first hu) + ·) (Finset.sum_congr rfl fun q _ => congrArg x (lift_row M N _ p q))

/-! ## A per-row number carried back across the columns -/

section Layout
variable {α : Type}

/-- A length-M vector seen as an M × 1 column reads its entry. -/
theorem colCast_apply (M : Nat) (v : (⟨1, ![M]⟩ : Shape).Idx → α) (h : (⟨1, ![M]⟩ : Shape).ShapeCasts ⟨2, ![M, 1]⟩)
    (p : Fin M) : shapeCast ⟨2, ![M, 1]⟩ v h (ix2 p 0) = v (ix1 p) :=
  shapeCast_apply v h (ix2 p 0) (ix1 p) (by
    rw [Shape.rowMajor_val_one, Shape.rowMajor_val_two]
    show p.val = p.val * 1 + 0
    omega)

/-- An M × 1 column copied across N columns (a vector broadcast) reads the column's entry of its row. -/
theorem colBroadcastTo_apply (M N : Nat) (v : (⟨2, ![M, 1]⟩ : Shape).Idx → α)
    (h : (⟨2, ![M, 1]⟩ : Shape).Broadcasts ⟨2, ![M, N]⟩) (p : Fin M) (q : Fin N) :
    broadcastTo ⟨2, ![M, N]⟩ v h (ix2 p q) = v (ix2 p 0) :=
  broadcastTo_apply v h (ix2 p q) (ix2 p 0) (fun a => by
    match a with
    | ⟨0, _⟩ =>
      show p.val = if M = 1 then 0 else p.val
      split
      · have := p.isLt; omega
      · rfl
    | ⟨1, _⟩ => rfl)

/-- A length-M vector placed along axis 0 of an M × 1 column (a whole-array broadcast) reads its entry. -/
theorem colBroadcastInDim_apply (M : Nat) (v : (⟨1, ![M]⟩ : Shape).Idx → α)
    (h : (⟨1, ![M]⟩ : Shape).BroadcastsInDim ⟨2, ![M, 1]⟩ ![0]) (p : Fin M) :
    broadcastInDim ⟨2, ![M, 1]⟩ ![0] h v (ix2 p 0) = v (ix1 p) :=
  broadcastInDim_apply ![0] h v (ix2 p 0) (ix1 p) (fun a => by
    match a with
    | ⟨0, _⟩ =>
      show p.val = if M = 1 then 0 else p.val
      split
      · have := p.isLt; omega
      · rfl)

/-- An M × 1 column copied across N columns (a whole-array broadcast) reads the column's entry of its row. -/
theorem acrossBroadcastInDim_apply (M N : Nat) (v : (⟨2, ![M, 1]⟩ : Shape).Idx → α)
    (h : (⟨2, ![M, 1]⟩ : Shape).BroadcastsInDim ⟨2, ![M, N]⟩ ![0, 1]) (p : Fin M) (q : Fin N) :
    broadcastInDim ⟨2, ![M, N]⟩ ![0, 1] h v (ix2 p q) = v (ix2 p 0) :=
  broadcastInDim_apply ![0, 1] h v (ix2 p q) (ix2 p 0) (fun a => by
    match a with
    | ⟨0, _⟩ =>
      show p.val = if M = 1 then 0 else p.val
      split
      · have := p.isLt; omega
      · rfl
    | ⟨1, _⟩ => rfl)

end Layout

end Cert.LibRowReduce

end
-- ==== Proof.Payloads.lean ====
/-
  What the body stores, read one entry at a time on the extended reals.

  The body's arithmetic is four stored values:
    the slot queries         q(k, e)   = Σₕ S(0, k, h) · Wq(h, e);
    the zero block           0;
    the accumulator's step   acc'(k, e) = acc(k, e) + Σᵣ w(r, k) · v(r, e)   over the tile's 4096 rows r, where
                             kx(r, ·) = x(0, r, ·) · Wk,  v(r, ·) = x(0, r, ·) · Wv,
                             w(r, k)  = attn(r, k) / Σₖ' attn(r, k'),  attn(r, k) = logistic(scale · Σₑ kx(r, e) · q(k, e)) + eps;
    the output block         out(0, k, e) = acc(k, e).
  A change of float format is the identity on the extended reals, a matrix product into a zero block is the plain sum
  over the contracted axis, a lane sum from zero is the plain sum of the row. Each entry is therefore the
  specification's term (`SlotSpec.contrib`, `SlotSpec.rowMul`) of the rows the tile holds.
-/
import proofs.«165767_j52252572123213_1_alg».proof.Proof.Gen.KernelIdeal.Skeleton
import proofs.«165767_j52252572123213_1_alg».proof.Proof.Spec
import proofs.«165767_j52252572123213_1_alg».proof.Proof.LibMatmulRows
import proofs.«165767_j52252572123213_1_alg».proof.Proof.LibDenseRowT
import proofs.«165767_j52252572123213_1_alg».proof.Proof.LibMatmulLeftT
import proofs.«165767_j52252572123213_1_alg».proof.Proof.LibRowReduce
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payloads

open Cert.KernelIdeal Cert.KernelIdeal.Gen Idealize.ShloMosaic Idealize.ShloMosaic.ValueIdx Cert.SlotSpec

/-! ## The four matrix products, at an entry -/

/-- Slots against the query weights: `(s · w)(k, e) = Σₕ s(k, h) · w(h, e)`. -/
theorem mmQ {φ₁ φ₂ : FTy} (s : FVec Ideal S64x128 φ₁) (w : FVec Ideal S128x128 φ₂) (k : Fin 64) (e : Fin 128) :
    matmul dot_S64x128_S128x128_S64x128_1_0_0_1_n_n none s w (constant S64x128 .f32 0x00000000#32) (ix2 k e)
      = ∑ h : Fin 128, s (ix2 k h) * w (ix2 h e) :=
  Cert.LibMatmulRows.matmul_zero_rows_apply Facts₀.dot_S64x128_S128x128_S64x128_1_0_0_1_n_n_wf none s w k e

/-- Rows against a projection: `(a · w)(r, e) = Σ_d a(r, d) · w(d, e)`. -/
theorem mmProj {φ₁ φ₂ : FTy} (a : FVec Ideal S4096x128 φ₁) (w : FVec Ideal S128x128 φ₂) (r : Fin 4096) (e : Fin 128) :
    matmul dot_S4096x128_S128x128_S4096x128_1_0_0_1_n_n none a w (constant S4096x128 .f32 0x00000000#32) (ix2 r e)
      = ∑ d : Fin 128, a (ix2 r d) * w (ix2 d e) :=
  Cert.LibMatmulRows.matmul_zero_rows_apply Facts₀.dot_S4096x128_S128x128_S4096x128_1_0_0_1_n_n_wf none a w r e

/-- Projected rows against the queries: `(a · qᵀ)(r, k) = Σₑ a(r, e) · q(k, e)`. -/
theorem mmScore {φ₁ φ₂ : FTy} (a : FVec Ideal S4096x128 φ₁) (q : FVec Ideal S64x128 φ₂) (r : Fin 4096) (k : Fin 64) :
    matmul dot_S4096x128_S64x128_S4096x64_1_1_0_0_n_n none a q (constant S4096x64 .f32 0x00000000#32) (ix2 r k)
      = ∑ e : Fin 128, a (ix2 r e) * q (ix2 k e) :=
  Cert.LibDenseRowT.matmulT_zero_apply Facts₀.dot_S4096x128_S64x128_S4096x64_1_1_0_0_n_n_wf none a q r k

/-- Weights against values, summed over the tile's rows: `(wᵀ · v)(k, e) = Σᵣ w(r, k) · v(r, e)`. -/
theorem mmMix {φ₁ φ₂ : FTy} (w : FVec Ideal S4096x64 φ₁) (v : FVec Ideal S4096x128 φ₂) (k : Fin 64) (e : Fin 128) :
    matmul dot_S4096x64_S4096x128_S64x128_0_0_1_1_n_n none w v (constant S64x128 .f32 0x00000000#32) (ix2 k e)
      = ∑ r : Fin 4096, w (ix2 r k) * v (ix2 r e) :=
  Cert.LibMatmulLeftT.matmulLT_zero_apply Facts₀.dot_S4096x64_S4096x128_S64x128_0_0_1_1_n_n_wf none w v k e

/-! ## The pieces of the accumulator's step -/

/-- A projected row of the tile is the specification's row product. -/
theorem proj_apply (x : Vec Ideal S1x4096x128 .f32) (w : Vec Ideal S128x128 .f32) (r : Fin 4096) (e : Fin 128) :
    matmul dot_S4096x128_S128x128_S4096x128_1_0_0_1_n_n none
        (truncf .bf16 (shapeCast S4096x128 x Facts₀.shapeCasts_S1x4096x128_S4096x128 : FVec Ideal S4096x128 .f32)
          Facts₀.bitsLt_bf16_f32)
        (truncf .bf16 (w : FVec Ideal S128x128 .f32) Facts₀.bitsLt_bf16_f32)
        (constant S4096x128 .f32 0x00000000#32) (ix2 r e)
      = rowMul (fun d => x (ix3 0 r d)) (fun d e' => w (ix2 d e')) e :=
  (mmProj _ _ r e).trans (Finset.sum_congr rfl fun d _ =>
    congrArg (· * w (ix2 d e)) (shapeCast_1ab_ab_apply x _ r d))

/-- The floored logistic of the scaled scores is the specification's attention. -/
theorem attn_apply (kx : FVec Ideal S4096x128 .f32) (q : FVec Ideal S64x128 .f32) (r : Fin 4096) (k : Fin 64) :
    addf (logistic (mulf (broadcast S4096x64 (Scalar.ofBits (F := Ideal) .f32 0x3DB504F3#32))
        (matmul dot_S4096x128_S64x128_S4096x64_1_1_0_0_n_n none (truncf .bf16 kx Facts₀.bitsLt_bf16_f32)
          (truncf .bf16 q Facts₀.bitsLt_bf16_f32) (constant S4096x64 .f32 0x00000000#32))))
      (broadcast S4096x64 (Scalar.ofBits (F := Ideal) .f32 0x322BCC77#32)) (ix2 r k)
      = attn (fun e => kx (ix2 r e)) (fun k' e => q (ix2 k' e)) k := by
  show Ideal.logistic (Ideal.ofBits .f32 0x3DB504F3#32
      * matmul dot_S4096x128_S64x128_S4096x64_1_1_0_0_n_n none (truncf .bf16 kx Facts₀.bitsLt_bf16_f32)
          (truncf .bf16 q Facts₀.bitsLt_bf16_f32) (constant S4096x64 .f32 0x00000000#32) (ix2 r k))
      + Ideal.ofBits .f32 0x322BCC77#32 = _
  unfold attn scale eps
  exact congrArg (fun z => Ideal.logistic (Ideal.ofBits .f32 0x3DB504F3#32 * z) + Ideal.ofBits .f32 0x322BCC77#32)
    (mmScore _ _ r k)

/-- An attention divided by its row's sum, the sum carried back across the row. -/
theorem weight_apply (a : FVec Ideal S4096x64 .f32) (r : Fin 4096) (k : Fin 64) :
    divf a (broadcastTo S4096x64 (shapeCast S4096x1
        (multiReduction .add [1] S4096 a 0x00000000#32 Facts₀.reduces_S4096x64_S4096 (.inl rfl) rfl)
        Facts₀.shapeCasts_S4096_S4096x1) Facts₀.broadcasts_S4096x1_S4096x64) (ix2 r k)
      = Ideal.div (a (ix2 r k)) (∑ k' : Fin 64, a (ix2 r k')) := by
  show Ideal.div (a (ix2 r k)) _ = _
  refine congrArg (Ideal.div (a (ix2 r k))) ?_
  refine (Cert.LibRowReduce.colBroadcastTo_apply 4096 64 _ Facts₀.broadcasts_S4096x1_S4096x64 r k).trans ?_
  refine (Cert.LibRowReduce.colCast_apply 4096 _ Facts₀.shapeCasts_S4096_S4096x1 r).trans ?_
  exact Cert.LibRowReduce.rowSum_apply 4096 64 a Facts₀.reduces_S4096x64_S4096 (.inl rfl) rfl r

/-! ## The stored values -/

/-- The zero block. -/
theorem pay3_apply (j : S64x128.Idx) : k0_pay3 (F := Ideal) j = 0 := by
  unfold k0_pay3
  refine (congrFun (shapeCast_self _ _) j).trans ?_
  exact Ideal.ofBits_zero_f32

/-- The slot queries: slot `k` of the block against the query weights. -/
theorem pay2_apply (s : Vec Ideal S1x64x128 .f32) (wq : Vec Ideal S128x128 .f32) (k : Fin 64) (e : Fin 128) :
    k0_pay2 s wq (ix2 k e) = rowMul (fun h => s (ix3 0 k h)) (fun h e' => wq (ix2 h e')) e := by
  unfold k0_pay2
  refine (congrFun (shapeCast_self _ _) (ix2 k e)).trans ?_
  refine (mmQ _ _ k e).trans ?_
  unfold rowMul
  exact Finset.sum_congr rfl fun h _ => congrArg (· * wq (ix2 h e)) (shapeCast_1ab_ab_apply s _ k h)

/-- The output block: the accumulator under a leading unit axis. -/
theorem pay1_apply (acc : Vec Ideal S64x128 .f32) (u : Fin 1) (k : Fin 64) (e : Fin 128) :
    k0_pay1 acc (ix3 u k e) = acc (ix2 k e) := by
  unfold k0_pay1
  exact shapeCast_ab_1ab_apply acc _ u k e

/-- THE ACCUMULATOR'S STEP: what was there plus the tile's rows' contributions. -/
theorem pay4_apply (x : Vec Ideal S1x4096x128 .f32) (wk wv : Vec Ideal S128x128 .f32) (q acc : Vec Ideal S64x128 .f32)
    (k : Fin 64) (e : Fin 128) :
    k0_pay4 x wk wv q acc (ix2 k e)
      = acc (ix2 k e) + ∑ r : Fin 4096, contrib (fun d => x (ix3 0 r d)) (fun d e' => wk (ix2 d e'))
          (fun d e' => wv (ix2 d e')) (fun k' e' => q (ix2 k' e')) k e := by
  unfold k0_pay4
  dsimp only
  refine (congrFun (shapeCast_self _ _) (ix2 k e)).trans ?_
  refine congrArg (acc (ix2 k e) + ·) ?_
  refine (mmMix _ _ k e).trans ?_
  refine Finset.sum_congr rfl fun r _ => ?_
  unfold contrib weight
  refine congrArg₂ (· * ·) ?_ (proj_apply x wv r e)
  refine (weight_apply _ r k).trans ?_
  have hattn : ∀ k' : Fin 64, _ = attn (rowMul (fun d => x (ix3 0 r d)) (fun d e'' => wk (ix2 d e'')))
      (fun k'' e' => q (ix2 k'' e')) k' := fun k' =>
    (attn_apply _ q r k').trans (congrArg (fun f => attn f (fun k'' e' => q (ix2 k'' e')) k') (funext fun e' => proj_apply x wk r e'))
  exact congrArg₂ Ideal.div (hattn k) (Finset.sum_congr rfl fun k' _ => hattn k')

end Cert.KernelIdeal.Payloads

end
-- ==== Proof.Blocks.lean ====
/-
  Each window's block at a grid point, read at an entry of the array it is cut from.

  Point t = 8·b + j stages
    rows 4096·j … 4096·j + 4095 of batch b of X     (block (b, j, 0) of 1 × 4096 × 128),
    the 64 slots of batch b of S                     (block (b, 0, 0) of 1 × 64 × 128),
    the three weight matrices whole                  (block (0, 0) of 128 × 128),
  and writes back block (b, 0, 0) of the 8 × 64 × 128 result. An element of a block sits in its array at block index times
  block size plus its place in the block, axis by axis; the block indices are decided once over the 64 points.
-/
import proofs.«165767_j52252572123213_1_alg».proof.Proof.Gen.KernelIdeal.Frame
import proofs.«165767_j52252572123213_1_alg».proof.Proof.Spec
import Idealize.ShloMosaic.Lib.ValueIdx
import Idealize.ShloMosaic.Lib.Pipeline.Value

noncomputable section

open Idealize.ShloMosaic Idealize.ShloMosaic.TcCoe Idealize.SL.Sem

namespace Cert.KernelIdeal.Blocks

open Cert.KernelIdeal Cert.KernelIdeal.Gen Idealize.ShloMosaic.ValueIdx Cert.SlotSpec

variable {F : FTy → Type} [FloatOps F]
variable (m : (ℓ : Loc nD τ sig) → Buf (Elt F) ℓ) (c : Dev nD)

/-- The printed index maps, decided over the grid: the batch is the point's quotient by 8, the tile its remainder. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val / 8 ∧ win0_5.index t (1 : Fin 3) = 0 ∧ win0_5.index t (2 : Fin 3) = 0 :=
  (by decide +kernel : ∀ t : Fin grid0.N, _)

/-- The batch a point works on. -/
def batch (t : Fin cfg0.N) : Fin 8 := ⟨t.val / 8, by have h := t.isLt; have hN : cfg0.N = 64 := N_0; omega⟩

theorem tile_lt (t : Fin cfg0.N) : t.val % 8 < 8 := Nat.mod_lt _ (by decide)

/-- The tile of rows. -/
theorem x_blk (t : Fin cfg0.N) (r : Fin 4096) (d : Fin 128) :
    (iblk m c 0 t : Vec F S1x4096x128 .f32) (ix3 0 r d) = V m c main_arg0 (ix3 (batch t) (tileRow (t.val % 8) r) d) := by
  obtain ⟨e0, e1, e2, -⟩ := idx_facts t
  show V m c main_arg0 (((cfg0.win 0).blk t).view.emb (ix3 0 r d)) = _
  refine congrArg (V m c main_arg0) (funext fun a => Fin.ext ?_)
  match a with
  | ⟨0, _⟩ => show win0_0.index t (0 : Fin 3) * 1 + 1 * 0 = t.val / 8; omega
  | ⟨1, _⟩ =>
    show win0_0.index t (1 : Fin 3) * 4096 + 1 * r.val = (tileRow (t.val % 8) r).val
    rw [tileRow_val _ (tile_lt t) r]; omega
  | ⟨2, _⟩ => show win0_0.index t (2 : Fin 3) * 128 + 1 * d.val = d.val; omega

/-- The batch's slots. -/
theorem s_blk (t : Fin cfg0.N) (k : Fin 64) (h : Fin 128) :
    (iblk m c 1 t : Vec F S1x64x128 .f32) (ix3 0 k h) = V m c main_arg1 (ix3 (batch t) k h) := by
  obtain ⟨-, -, -, e0, e1, e2, -⟩ := idx_facts t
  show V m c main_arg1 (((cfg0.win 1).blk t).view.emb (ix3 0 k h)) = _
  refine congrArg (V m c main_arg1) (funext fun a => Fin.ext ?_)
  match a with
  | ⟨0, _⟩ => show win0_1.index t (0 : Fin 3) * 1 + 1 * 0 = t.val / 8; omega
  | ⟨1, _⟩ => show win0_1.index t (1 : Fin 3) * 64 + 1 * k.val = k.val; omega
  | ⟨2, _⟩ => show win0_1.index t (2 : Fin 3) * 128 + 1 * h.val = h.val; omega

/-- The key weights, whole. -/
theorem wk_blk (t : Fin cfg0.N) (d e : Fin 128) :
    (iblk m c 2 t : Vec F S128x128 .f32) (ix2 d e) = V m c main_arg2 (ix2 d e) := by
  obtain ⟨-, -, -, -, -, -, e0, e1, -⟩ := idx_facts t
  show V m c main_arg2 (((cfg0.win 2).blk t).view.emb (ix2 d e)) = _
  refine congrArg (V m c main_arg2) (funext fun a => Fin.ext ?_)
  match a with
  | ⟨0, _⟩ => show win0_2.index t (0 : Fin 2) * 128 + 1 * d.val = d.val; omega
  | ⟨1, _⟩ => show win0_2.index t (1 : Fin 2) * 128 + 1 * e.val = e.val; omega

/-- The query weights, whole. -/
theorem wq_blk (t : Fin cfg0.N) (d e : Fin 128) :
    (iblk m c 3 t : Vec F S128x128 .f32) (ix2 d e) = V m c main_arg3 (ix2 d e) := by
  obtain ⟨-, -, -, -, -, -, -, -, e0, e1, -⟩ := idx_facts t
  show V m c main_arg3 (((cfg0.win 3).blk t).view.emb (ix2 d e)) = _
  refine congrArg (V m c main_arg3) (funext fun a => Fin.ext ?_)
  match a with
  | ⟨0, _⟩ => show win0_3.index t (0 : Fin 2) * 128 + 1 * d.val = d.val; omega
  | ⟨1, _⟩ => show win0_3.index t (1 : Fin 2) * 128 + 1 * e.val = e.val; omega

/-- The value weights, whole. -/
theorem wv_blk (t : Fin cfg0.N) (d e : Fin 128) :
    (iblk m c 4 t : Vec F S128x128 .f32) (ix2 d e) = V m c main_arg4 (ix2 d e) := by
  obtain ⟨-, -, -, -, -, -, -, -, -, -, e0, e1, -⟩ := idx_facts t
  show V m c main_arg4 (((cfg0.win 4).blk t).view.emb (ix2 d e)) = _
  refine congrArg (V m c main_arg4) (funext fun a => Fin.ext ?_)
  match a with
  | ⟨0, _⟩ => show win0_4.index t (0 : Fin 2) * 128 + 1 * d.val = d.val; omega
  | ⟨1, _⟩ => show win0_4.index t (1 : Fin 2) * 128 + 1 * e.val = e.val; omega

/-- Where an entry of the result block lands in the result array. -/
theorem out_emb (t : Fin cfg0.N) (u : Fin 1) (k : Fin 64) (e : Fin 128) :
    ((cfg0.win 5).blk t).view.emb (ix3 u k e) = (ix3 (batch t) k e : S8x64x128.Idx) := by
  obtain ⟨-, -, -, -, -, -, -, -, -, -, -, -, e0, e1, e2⟩ := idx_facts t
  have hu : u.val = 0 := by omega
  funext a
  apply Fin.ext
  match a with
  | ⟨0, _⟩ => show win0_5.index t (0 : Fin 3) * 1 + 1 * u.val = t.val / 8; omega
  | ⟨1, _⟩ => show win0_5.index t (1 : Fin 3) * 64 + 1 * k.val = k.val; omega
  | ⟨2, _⟩ => show win0_5.index t (2 : Fin 3) * 128 + 1 * e.val = e.val; omega

/-- Contents of the result block that agree, entry by entry, with an array at the block's place in it are that array read
    through the block. -/
theorem out_blk_read (t : Fin cfg0.N) (A : Vec F S1x64x128 .f32) (G : Buf (Elt F) ((c : Thread nD τ).loc main_v0))
    (h : ∀ (u : Fin 1) (k : Fin 64) (e : Fin 128), A (ix3 u k e) = G (ix3 (batch t) k e)) :
    (cfg0.win 5).cut (grid0.coords t) A = ((cfg0.win 5).blk t).view.read (Elt F) G := by
  funext y
  obtain ⟨u, k, e, rfl⟩ : ∃ (u : Fin 1) (k : Fin 64) (e : Fin 128), (y : S1x64x128.Idx) = ix3 u k e :=
    ⟨y 0, y 1, y 2, eq_ix3 y⟩
  show A (ix3 u k e) = G (((cfg0.win 5).blk t).view.emb (ix3 u k e))
  rw [out_emb t u k e]
  exact h u k e

/-- An entry of the result array is in point `t`'s block iff each coordinate is in the block's range on its axis. -/
theorem mem_out_blk (t : Fin cfg0.N) (i : S8x64x128.Idx) :
    i ∈ ((cfg0.win 5).blk t).view.set
      ↔ ∀ a : Fin 3, win0_5.index t a * S1x64x128.size a ≤ (i a).val
          ∧ (i a).val < win0_5.index t a * S1x64x128.size a + S1x64x128.size a := by
  show i ∈ ((View.whole main_v0).slice (win0_5.rect t)).set ↔ _
  rw [View.set_slice_whole, Rect.mem_set_unit]
  exact Iff.rfl

/-- Every entry of the result is in the block the last tile of its batch writes back. -/
theorem out_cover (i : S8x64x128.Idx) :
    ∃ t : Fin cfg0.N, (cfg0.win 5).flush t = true ∧ i ∈ ((cfg0.win 5).blk t).view.set := by
  have hN : cfg0.N = 64 := N_0
  have h0 : (i 0).val < 8 := (i 0).isLt
  have h1 : (i 1).val < 64 := (i 1).isLt
  have h2 : (i 2).val < 128 := (i 2).isLt
  let t : Fin cfg0.N := ⟨8 * (i 0).val + 7, by omega⟩
  have ht : t.val = 8 * (i 0).val + 7 := rfl
  obtain ⟨-, -, -, -, -, -, -, -, -, -, -, -, e0, e1, e2⟩ := idx_facts t
  refine ⟨t, (flush0_5 t).mpr (by omega), ?_⟩
  rw [mem_out_blk]
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 64 ≤ (i 1).val ∧ (i 1).val < win0_5.index t (1 : Fin 3) * 64 + 64
    omega
  | ⟨2, _⟩ =>
    show win0_5.index t (2 : Fin 3) * 128 ≤ (i 2).val ∧ (i 2).val < win0_5.index t (2 : Fin 3) * 128 + 128
    omega

end Cert.KernelIdeal.Blocks

end
-- ==== Proof.KernelValue.lean ====
/-
  The kernel's result array is the specification's array.

  By induction along the 64 grid points: during batch b the query buffer holds q = S(b)·Wq, and after tile j the
  accumulator holds the running sum of the tiles' partial results 0, …, j of that batch (the first onto zero). After the
  eighth tile the running sum is the sum over all 32768 rows (`SlotSpec.tiles_eq`: addition of extended reals is
  commutative and associative), and that point alone writes its block back: block b of the 8 × 64 × 128 result. The eight
  written blocks cover the result, so the array ends holding the specification's `encode` of the argument arrays.
-/
import proofs.«165767_j52252572123213_1_alg».proof.Proof.Steps
import proofs.«165767_j52252572123213_1_alg».proof.Proof.Payloads
import proofs.«165767_j52252572123213_1_alg».proof.Proof.Blocks
import proofs.«165767_j52252572123213_1_alg».proof.Proof.Gen.KernelIdeal.Value

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx Cert.SlotSpec
open Cert.KernelIdeal.Blocks Cert.KernelIdeal.Payloads

variable (m : (ℓ : Loc nD τ sig) → Buf (Elt Ideal) ℓ) (ρ : Dev nD → PrngReg) (c : Dev nD)

/-! ## A batch's data, as the specification takes it -/

abbrev rowsOf (b : Fin 8) : Fin 32768 → Fin 128 → EReal := fun n d => V m c main_arg0 (ix3 b n d)
abbrev keyW : Fin 128 → Fin 128 → EReal := fun d e => V m c main_arg2 (ix2 d e)
abbrev valW : Fin 128 → Fin 128 → EReal := fun d e => V m c main_arg4 (ix2 d e)
abbrev queriesOf (b : Fin 8) : Fin 64 → Fin 128 → EReal :=
  fun k e => rowMul (fun h => V m c main_arg1 (ix3 b k h)) (fun h e' => V m c main_arg3 (ix2 h e')) e

/-- The query buffer during batch `b`. -/
def qArr (b : Fin 8) : Vec Ideal S64x128 .f32 := fun i => queriesOf m c b (i 0) (i 1)

/-- The accumulator after tile `j` of batch `b`: the running sum of the tiles' partial results. -/
def accArr (b : Fin 8) (j : ℕ) : Vec Ideal S64x128 .f32 :=
  fun i => runSum (fun j' => tileSum (rowsOf m c b) (keyW m c) (valW m c) (queriesOf m c b) j' (i 0) (i 1)) j

theorem accArr_zero (b : Fin 8) (i : S64x128.Idx) :
    accArr m c b 0 i = 0 + tileSum (rowsOf m c b) (keyW m c) (valW m c) (queriesOf m c b) 0 (i 0) (i 1) := rfl

theorem accArr_succ (b : Fin 8) (j : ℕ) (i : S64x128.Idx) :
    accArr m c b (j + 1) i
      = accArr m c b j i + tileSum (rowsOf m c b) (keyW m c) (valW m c) (queriesOf m c b) (j + 1) (i 0) (i 1) := rfl

/-! ## One step, on the batch's data -/

/-- The queries a batch's first tile stores. -/
theorem q_step (t : Fin cfg0.N) (b : Fin 8) (hb : batch t = b) :
    k0_pay2 (iblk m c 1 t) (iblk m c 3 t) = qArr m c b := by
  subst hb
  funext j
  obtain ⟨k, e, rfl⟩ : ∃ (k : Fin 64) (e : Fin 128), j = ix2 k e := ⟨j 0, j 1, eq_ix2 j⟩
  refine (pay2_apply (iblk m c 1 t) (iblk m c 3 t) k e).trans ?_
  show _ = rowMul (fun h => V m c main_arg1 (ix3 (batch t) k h)) (fun h e' => V m c main_arg3 (ix2 h e')) e
  exact congrArg₂ (fun f g => rowMul f g e) (funext fun h => s_blk m c t k h)
    (funext fun h => funext fun e' => wq_blk m c t h e')

/-- The accumulator's step at tile `t mod 8`: one more tile's partial result. -/
theorem acc_step (t : Fin cfg0.N) (b : Fin 8) (hb : batch t = b) (acc : Vec Ideal S64x128 .f32) :
    k0_pay4 (iblk m c 0 t) (iblk m c 2 t) (iblk m c 4 t) (qArr m c b) acc
      = fun i => acc i + tileSum (rowsOf m c b) (keyW m c) (valW m c) (queriesOf m c b) (t.val % 8) (i 0) (i 1) := by
  subst hb
  funext j
  obtain ⟨k, e, rfl⟩ : ∃ (k : Fin 64) (e : Fin 128), j = ix2 k e := ⟨j 0, j 1, eq_ix2 j⟩
  refine (pay4_apply (iblk m c 0 t) (iblk m c 2 t) (iblk m c 4 t) (qArr m c (batch t)) acc k e).trans ?_
  show acc (ix2 k e) + _ = acc (ix2 k e) + tileSum _ _ _ _ (t.val % 8) k e
  refine congrArg (acc (ix2 k e) + ·) ?_
  unfold tileSum
  refine Finset.sum_congr rfl fun r _ => ?_
  have e0 : (fun d => (iblk m c 0 t : Vec Ideal S1x4096x128 .f32) (ix3 0 r d))
      = rowsOf m c (batch t) (tileRow (t.val % 8) r) := funext fun d => x_blk m c t r d
  have e2 : (fun d e' => (iblk m c 2 t : Vec Ideal S128x128 .f32) (ix2 d e')) = keyW m c :=
    funext fun d => funext fun e' => wk_blk m c t d e'
  have e4 : (fun d e' => (iblk m c 4 t : Vec Ideal S128x128 .f32) (ix2 d e')) = valW m c :=
    funext fun d => funext fun e' => wv_blk m c t d e'
  show contrib (fun d => (iblk m c 0 t : Vec Ideal S1x4096x128 .f32) (ix3 0 r d))
      (fun d e' => (iblk m c 2 t : Vec Ideal S128x128 .f32) (ix2 d e'))
      (fun d e' => (iblk m c 4 t : Vec Ideal S128x128 .f32) (ix2 d e')) (queriesOf m c (batch t)) k e = _
  rw [e0, e2, e4]

/-! ## The induction along the grid -/

/-- After point `n` = 8·b + j: the queries of batch b, the running sum through tile j. -/
theorem state_at : ∀ (n : ℕ) (h : n < cfg0.N),
    Steps.qAt m c n h = qArr m c (batch ⟨n, h⟩) ∧ Steps.accAt m c n h = accArr m c (batch ⟨n, h⟩) (n % 8)
  | 0, h => by
    obtain ⟨eq, ea⟩ := Steps.first m c ⟨0, h⟩ (Nat.zero_mod 8)
    refine ⟨eq.trans (q_step m c ⟨0, h⟩ _ rfl), ea.trans ?_⟩
    rw [q_step m c ⟨0, h⟩ _ rfl]
    refine (acc_step m c ⟨0, h⟩ _ rfl _).trans ?_
    funext i
    show k0_pay3 (F := Ideal) i + tileSum _ _ _ _ 0 (i 0) (i 1) = accArr m c _ 0 i
    rw [pay3_apply, accArr_zero]
  | n + 1, h => by
    obtain ⟨ihq, iha⟩ := state_at n (Nat.lt_of_succ_lt h)
    have hN : cfg0.N = 64 := N_0
    by_cases h0 : (n + 1) % 8 = 0
    · obtain ⟨eq, ea⟩ := Steps.first m c ⟨n + 1, h⟩ h0
      refine ⟨eq.trans (q_step m c ⟨n + 1, h⟩ _ rfl), ea.trans ?_⟩
      rw [q_step m c ⟨n + 1, h⟩ _ rfl]
      refine (acc_step m c ⟨n + 1, h⟩ _ rfl _).trans ?_
      funext i
      show k0_pay3 (F := Ideal) i + tileSum _ _ _ _ ((n + 1) % 8) (i 0) (i 1) = accArr m c _ ((n + 1) % 8) i
      rw [pay3_apply, h0, accArr_zero]
    · obtain ⟨eq, ea⟩ := Steps.later m c ⟨n + 1, h⟩ h0
      have hb : batch ⟨n + 1, h⟩ = batch ⟨n, Nat.lt_of_succ_lt h⟩ :=
        Fin.ext (by show (n + 1) / 8 = n / 8; omega)
      have hj : (n + 1) % 8 = n % 8 + 1 := by omega
      have eq' : Steps.qAt m c (n + 1) h = Steps.qAt m c n (Nat.lt_of_succ_lt h) := eq
      have ea' : Steps.accAt m c (n + 1) h
          = k0_pay4 (iblk m c 0 ⟨n + 1, h⟩) (iblk m c 2 ⟨n + 1, h⟩) (iblk m c 4 ⟨n + 1, h⟩)
              (Steps.qAt m c n (Nat.lt_of_succ_lt h)) (Steps.accAt m c n (Nat.lt_of_succ_lt h)) := ea
      rw [hb, hj]
      refine ⟨eq'.trans ihq, ea'.trans ?_⟩
      rw [ihq, iha]
      refine (acc_step m c ⟨n + 1, h⟩ _ hb _).trans ?_
      funext i
      show accArr m c _ (n % 8) i + tileSum _ _ _ _ ((n + 1) % 8) (i 0) (i 1) = accArr m c _ (n % 8 + 1) i
      rw [hj, accArr_succ]

/-! ## The write-back and the final array -/

/-- The result, as contents of the result array. -/
abbrev result (c : Dev nD) : Buf (Elt Ideal) ((c : Thread nD τ).loc main_v0) :=
  encode (m ((c : Thread nD τ).loc main_arg0)) (m ((c : Thread nD τ).loc main_arg1)) (m ((c : Thread nD τ).loc main_arg2))
    (m ((c : Thread nD τ).loc main_arg3)) (m ((c : Thread nD τ).loc main_arg4))

/-- The last tile of batch b writes back block b of the result. -/
theorem flushed_eq (t : Fin cfg0.N) (hf : (cfg0.win 5).flush t = true) :
    (dats m 0 c).flushed 5 t = ((cfg0.win 5).blk t).view.read (Elt Ideal) (result m c) := by
  have h7 : t.val % 8 = 7 := (flush0_5 t).mp hf
  have h0 : ¬t.val % 8 = 0 := by omega
  have hacc : Steps.accAt m c t.val t.isLt = accArr m c (batch t) 7 := by
    have := (state_at m c t.val t.isLt).2
    rw [h7] at this
    exact this
  rw [Value.flushed5 m c t, Steps.last m c t h7, ← (Steps.later m c t h0).2, hacc]
  refine out_blk_read c t _ (result m c) fun u k e => ?_
  rw [pay1_apply]
  show runSum (fun j => tileSum (rowsOf m c (batch t)) (keyW m c) (valW m c) (queriesOf m c (batch t)) j k e) 7
    = slots (rowsOf m c (batch t)) (keyW m c) (valW m c) (queriesOf m c (batch t)) k e
  exact tiles_eq _ _ _ _ k e

/-- So the result array ends holding the specification's array. -/
theorem final_out : (dats m 0 c).arrAt 5 cfg0.N = result m c :=
  (dats m 0 c).arrAt_eq_of_cover 5 (result m c) (flushed_eq m c) out_cover

/-- The run, read: the result array at the specification's array of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_out m c), (h c).2⟩) (Value.run_blocks m ρ)

end Cert.KernelIdeal.KValue

end
-- ==== Proof.RefValue.lean ====
/-
  The reference's result is the specification's array.

  The reference computes, over whole arrays, k = X·Wk, v = X·Wv, q = S·Wq, the scores k·qᵀ per batch, their scaled
  logistic spelt out as 1 / (1 + exp(−z)), the floor eps, the row sums over the 64 slots carried back across the row,
  the quotient, and the contraction with v over all 32768 rows. Read at one entry (b, k, e), operation by operation,
  that is `Σₙ w(n, k) · v(n, e)` with exactly the specification's terms: the expansion 1 / (1 + exp(−z)) IS the logistic on
  the extended reals, the literal 1.0 is the real 1, and a sum started from the literal 0 is the sum.
-/
import proofs.«165767_j52252572123213_1_alg».proof.Proof.Gen.ReferenceIdeal.Read
import proofs.«165767_j52252572123213_1_alg».proof.Proof.Spec
import Idealize.ShloMosaic.Lib.ValueIdx
import Idealize.ShloMosaic.Lib.IdealHost
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
open Cert.SlotSpec

variable (x0 : (⟨S8x32768x128, .f32⟩ : BufTy).Contents (Elt Ideal)) (x1 : (⟨S8x64x128, .f32⟩ : BufTy).Contents (Elt Ideal))
  (x2 x3 x4 : (⟨S128x128, .f32⟩ : BufTy).Contents (Elt Ideal))

/-- The batch's slot queries, as the specification spells them. -/
abbrev qOf (b : Fin 8) : Fin 64 → Fin 128 → EReal :=
  fun k' e' => rowMul (fun h => x1 (ix3 b k' h)) (fun h e'' => x3 (ix2 h e'')) e'

/-- k = X·Wk at (b, n, e). -/
theorem k_apply (b : Fin 8) (n : Fin 32768) (e : Fin 128) :
    val_main_v0 (F := Ideal) x0 x2 (ix3 b n e) = rowMul (fun d => x0 (ix3 b n d)) (fun d e' => x2 (ix2 d e')) e := by
  rw [val_main_v0_apply]
  unfold rowMul
  refine Finset.sum_congr rfl fun d _ => ?_
  rw [show lidx_main_v0 (ix3 b n e) d = ix3 b n d from funext fun a => Fin.ext (by match a with | ⟨0, _⟩ => rfl | ⟨1, _⟩ => rfl | ⟨2, _⟩ => rfl),
    show ridx_main_v0 (ix3 b n e) d = ix2 d e from funext fun a => Fin.ext (by match a with | ⟨0, _⟩ => rfl | ⟨1, _⟩ => rfl)]

/-- v = X·Wv at (b, n, e). -/
theorem v_apply (b : Fin 8) (n : Fin 32768) (e : Fin 128) :
    val_main_v1 (F := Ideal) x0 x4 (ix3 b n e) = rowMul (fun d => x0 (ix3 b n d)) (fun d e' => x4 (ix2 d e')) e := by
  rw [val_main_v1_apply]
  unfold rowMul
  refine Finset.sum_congr rfl fun d _ => ?_
  rw [show lidx_main_v1 (ix3 b n e) d = ix3 b n d from funext fun a => Fin.ext (by match a with | ⟨0, _⟩ => rfl | ⟨1, _⟩ => rfl | ⟨2, _⟩ => rfl),
    show ridx_main_v1 (ix3 b n e) d = ix2 d e from funext fun a => Fin.ext (by match a with | ⟨0, _⟩ => rfl | ⟨1, _⟩ => rfl)]

/-- q = S·Wq at (b, k, e). -/
theorem q_apply (b : Fin 8) (k : Fin 64) (e : Fin 128) :
    val_main_v2 (F := Ideal) x1 x3 (ix3 b k e) = qOf x1 x3 b k e := by
  rw [val_main_v2_apply]
  show _ = rowMul (fun h => x1 (ix3 b k h)) (fun h e'' => x3 (ix2 h e'')) e
  unfold rowMul
  refine Finset.sum_congr rfl fun h _ => ?_
  rw [show lidx_main_v2 (ix3 b k e) h = ix3 b k h from funext fun a => Fin.ext (by match a with | ⟨0, _⟩ => rfl | ⟨1, _⟩ => rfl | ⟨2, _⟩ => rfl),
    show ridx_main_v2 (ix3 b k e) h = ix2 h e from funext fun a => Fin.ext (by match a with | ⟨0, _⟩ => rfl | ⟨1, _⟩ => rfl)]

/-- The floored logistic of the scaled score at (b, n, k) is the specification's attention. -/
theorem attn_apply (b : Fin 8) (n : Fin 32768) (k : Fin 64) :
    val_main_v13 (F := Ideal) x0 x1 x2 x3 (ix3 b n k)
      = attn (rowMul (fun d => x0 (ix3 b n d)) (fun d e' => x2 (ix2 d e'))) (qOf x1 x3 b) k := by
  rw [val_main_v13_apply, val_main_v11_apply, val_main_v12_apply, val_main_cst_2_apply, val_main_v10_apply,
    val_main_cst_1_apply, val_main_v9_apply, val_main_v8_apply, val_main_cst_0_apply, val_main_v7_apply,
    val_main_v6_apply, val_main_v5_apply, val_main_v4_apply, val_main_cst_apply, val_main_v3_apply]
  simp only [Ideal.addf_def, Ideal.hostDivf_def, Ideal.hostUnary_exp_def, Ideal.hostNegf_def, Ideal.negf_def,
    Ideal.mulf_def, Ideal.ofBits_def, Ideal.ofBits_one_f32]
  unfold attn Ideal.logistic scale eps
  refine congrArg (fun z => Ideal.div 1 (1 + Ideal.exp (-(Ideal.ofBits .f32 0x3DB504F3#32 * z)))
    + Ideal.ofBits .f32 0x322BCC77#32) ?_
  refine Finset.sum_congr rfl fun e _ => ?_
  rw [show lidx_main_v3 (ix3 b n k) e = ix3 b n e from funext fun a => Fin.ext (by match a with | ⟨0, _⟩ => rfl | ⟨1, _⟩ => rfl | ⟨2, _⟩ => rfl),
    show ridx_main_v3 (ix3 b n k) e = ix3 b k e from funext fun a => Fin.ext (by match a with | ⟨0, _⟩ => rfl | ⟨1, _⟩ => rfl | ⟨2, _⟩ => rfl), k_apply, q_apply]

/-- The normalised weight at (b, n, k). -/
theorem weight_apply (b : Fin 8) (n : Fin 32768) (k : Fin 64) :
    val_main_v17 (F := Ideal) x0 x1 x2 x3 (ix3 b n k)
      = weight (rowMul (fun d => x0 (ix3 b n d)) (fun d e' => x2 (ix2 d e'))) (qOf x1 x3 b) k := by
  rw [val_main_v17_apply, val_main_v16_apply, val_main_v15_apply, val_main_v14_apply, val_main_cst_3_apply, attn_apply]
  simp only [Ideal.hostDivf_def, Ideal.ofBits_def, Ideal.ofBits_zero_f32, zero_add]
  unfold weight
  refine congrArg (Ideal.div _) (Finset.sum_congr rfl fun k' _ => ?_)
  rw [show idx_main_v14 (idx_main_v15 (idx_main_v16 (ix3 b n k))) k' = ix3 b n k' from funext fun a => Fin.ext (by match a with | ⟨0, _⟩ => rfl | ⟨1, _⟩ => rfl | ⟨2, _⟩ => rfl), attn_apply]

/-- THE REFERENCE IS THE SPECIFICATION. -/
theorem ref_eq : val_main_v18 (F := Ideal) x0 x1 x2 x3 x4 = encode x0 x1 x2 x3 x4 := by
  funext i
  obtain ⟨b, k, e, rfl⟩ : ∃ (b : Fin 8) (k : Fin 64) (e : Fin 128), i = ix3 b k e := ⟨i 0, i 1, i 2, eq_ix3 i⟩
  rw [val_main_v18_apply]
  show _ = slots (fun n d => x0 (ix3 b n d)) (fun d e' => x2 (ix2 d e')) (fun d e' => x4 (ix2 d e')) (qOf x1 x3 b) k e
  unfold slots contrib
  refine Finset.sum_congr rfl fun n _ => ?_
  rw [show lidx_main_v18 (ix3 b k e) n = ix3 b n k from funext fun a => Fin.ext (by match a with | ⟨0, _⟩ => rfl | ⟨1, _⟩ => rfl | ⟨2, _⟩ => rfl),
    show ridx_main_v18 (ix3 b k e) n = ix3 b n e from funext fun a => Fin.ext (by match a with | ⟨0, _⟩ => rfl | ⟨1, _⟩ => rfl | ⟨2, _⟩ => rfl), weight_apply, v_apply]

end Cert.ReferenceIdeal.RefValue

end
-- ==== Proof.lean ====
/-
  A slot-set encoder as one fused kernel, against its whole-array reference, on the extended reals.

  For each of 8 batches, 32768 rows X(b, n, ·) of 128 features are attended to by 64 slots S(b, k, ·):
      q = S·Wq,  kx = X·Wk,  v = X·Wv,
      attn(n, k) = logistic(scale · Σₑ kx(n, e)·q(k, e)) + eps,   w(n, k) = attn(n, k) / Σₖ' attn(n, k'),
      out(b, k, e) = Σₙ w(n, k)·v(n, e).
  The reference computes this with whole-array operations and spells the logistic as 1 / (1 + exp(−z)). The kernel walks
  each batch's rows in eight tiles of 4096: at the first tile it stores q and zeroes an accumulator, at every tile it adds
  the tile's partial sum Σᵣ w(r, k)·v(r, e), and after the eighth it writes the accumulator out as the batch's block.

  On the extended reals the two agree with no appeal to finiteness: a change of float format is the identity, the matrix
  unit's product into a zero block and the host's contraction are the same plain sums, 1 / (1 + exp(−z)) is the logistic,
  both sides carry the same two literals (the scale and the floor), and the eight partial sums added in order onto zero are
  the sum over all rows because addition of extended reals is commutative and associative (`SlotSpec.tiles_eq`).

  `SlotSpec.encode` states the result once. `KValue.run`: the kernel's run ends with the result array at `encode` of the
  arguments (induction along the grid over the two buffers the body carries between points). `RefValue.ref_eq`: the
  reference's term is `encode`, entry by entry. The three frames are the programs' runs with the result dropped; the
  idealization rewrote nothing.
-/
import proofs.«165767_j52252572123213_1_alg».proof.Defs
import proofs.«165767_j52252572123213_1_alg».proof.Proof.Gen.Kernel
import proofs.«165767_j52252572123213_1_alg».proof.Proof.Gen.Kernel.Skeleton
import proofs.«165767_j52252572123213_1_alg».proof.Proof.Gen.Kernel.Launch
import proofs.«165767_j52252572123213_1_alg».proof.Proof.Gen.Kernel.Points
import proofs.«165767_j52252572123213_1_alg».proof.Proof.Gen.Kernel.Frame
import proofs.«165767_j52252572123213_1_alg».proof.Proof.Gen.KernelIdeal
import proofs.«165767_j52252572123213_1_alg».proof.Proof.Gen.KernelIdeal.Skeleton
import proofs.«165767_j52252572123213_1_alg».proof.Proof.Gen.KernelIdeal.Launch
import proofs.«165767_j52252572123213_1_alg».proof.Proof.Gen.KernelIdeal.Points
import proofs.«165767_j52252572123213_1_alg».proof.Proof.Gen.KernelIdeal.Frame
import proofs.«165767_j52252572123213_1_alg».proof.Proof.Gen.ReferenceIdeal
import proofs.«165767_j52252572123213_1_alg».proof.Proof.Gen.Pre_finite_inputs
import proofs.«165767_j52252572123213_1_alg».proof.Proof.Gen.KernelIdeal.Value
import proofs.«165767_j52252572123213_1_alg».proof.Proof.Gen.ReferenceIdeal.Run
import proofs.«165767_j52252572123213_1_alg».proof.Proof.Gen.ReferenceIdeal.Read
import proofs.«165767_j52252572123213_1_alg».proof.Proof.KernelValue
import proofs.«165767_j52252572123213_1_alg».proof.Proof.RefValue
import Idealize.ShloMosaic.Adequacy
import Idealize.ShloMosaic.Init

noncomputable section

namespace Cert.Proof

open Idealize.ShloMosaic Idealize.SL.Sem

/-- The kernel as printed runs, and leaves its arguments as they were. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference is a straight line of whole-array operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs, from memories that agree on the five arguments, end with the result array at the specification's
    `encode` of those arguments. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.ref_eq, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
